-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x4 : Shape := ⟨2, ![128, 4]⟩
abbrev S4x256x128 : Shape := ⟨3, ![4, 256, 128]⟩
abbrev S4x128 : Shape := ⟨2, ![4, 128]⟩
abbrev S4x128x1 : Shape := ⟨3, ![4, 128, 1]⟩
abbrev S4x1 : Shape := ⟨2, ![4, 1]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x1 : S_.BroadcastsInDim S4x128x1 (![] : Fin 0 → Fin S4x128x1.rank)
  reducesTo_S4x128x1_S_d0_1_2 : S4x128x1.ReducesTo [0, 1, 2] S_
  bcast_S_S4x1 : S_.BroadcastsInDim S4x1 (![] : Fin 0 → Fin S4x1.rank)
  reducesTo_S4x1_S_d0_1 : S4x1.ReducesTo [0, 1] S_

variable [Facts]

def fn_part1 {F : FTy → Type} [FloatOps F] (main_arg4 : FVec F S4x128x1 .f32) (main_arg5 : FVec F S4x1 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x1 .f32 := Host.absf main_arg4
  let main_cst_6 : FVec F S_ .f32 := constant S_ .f32 0x7F800000#32
  let main_v20 : FVec F S4x128x1 .f32 := broadcastInDim S4x128x1 ![] bcast_S_S4x128x1 main_cst_6
  let main_v21 : IVec S4x128x1 1 := cmpf .olt main_v19 main_v20
  let main_c_7 : IVec S_ 1 := constantI S_ 1 1#1
  let main_v22 : IVec S_ 1 := (fun x v => Host.reduce IntOp.andi x v reducesTo_S4x128x1_S_d0_1_2 h_S_) main_v21 main_c_7
  let main_v23 : IVec S_ 1 := andi main_v18 main_v22
  let main_v24 : FVec F S4x1 .f32 := Host.absf main_arg5
  let main_cst_8 : FVec F S_ .f32 := constant S_ .f32 0x7F800000#32
  let main_v25 : FVec F S4x1 .f32 := broadcastInDim S4x1 ![] bcast_S_S4x1 main_cst_8
  let main_v26 : IVec S4x1 1 := cmpf .olt main_v24 main_v25
  let main_c_9 : IVec S_ 1 := constantI S_ 1 1#1
  let main_v27 : IVec S_ 1 := (fun x v => Host.reduce IntOp.andi x v reducesTo_S4x1_S_d0_1 h_S_) main_v26 main_c_9
  let main_v28 : IVec S_ 1 := andi main_v23 main_v27
  main_v28

def fn {F : FTy → Type} [FloatOps F] (main_arg0 : FVec F S131072x128 .f32) (main_arg1 : FVec F S128x4 .f32) (main_arg2 : FVec F S4x256x128 .f32) (main_arg3 : FVec F S4x128 .f32) (main_arg4 : FVec F S4x128x1 .f32) (main_arg5 : FVec F S4x1 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4x256x128 .f32 := Host.absf main_arg2
  let main_cst_2 : FVec F S_ .f32 := constant S_ .f32 0x7F800000#32
  let main_v10 : FVec F S4x256x128 .f32 := broadcastInDim S4x256x128 ![] bcast_S_S4x256x128 main_cst_2
  let main_v11 : IVec S4x256x128 1 := cmpf .olt main_v9 main_v10
  let main_c_3 : IVec S_ 1 := constantI S_ 1 1#1
  let main_v12 : IVec S_ 1 := (fun x v => Host.reduce IntOp.andi x v reducesTo_S4x256x128_S_d0_1_2 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_v13 main_v16
-- ==== Kernel.lean ====
abbrev S131072x128 : Shape := ⟨2, ![131072, 128]⟩
abbrev S128x4 : Shape := ⟨2, ![128, 4]⟩
abbrev S4x256x128 : Shape := ⟨3, ![4, 256, 128]⟩
abbrev S4x128 : Shape := ⟨2, ![4, 128]⟩
abbrev S4x128x1 : Shape := ⟨3, ![4, 128, 1]⟩
abbrev S4x1 : Shape := ⟨2, ![4, 1]⟩
abbrev S1024x128 : Shape := ⟨2, ![1024, 128]⟩
abbrev S4096x128 : Shape := ⟨2, ![4096, 128]⟩
abbrev S32x128 : Shape := ⟨2, ![32, 128]⟩
abbrev S128x1 : Shape := ⟨2, ![128, 1]⟩
abbrev S128 : Shape := ⟨1, ![128]⟩
abbrev S1x128 : Shape := ⟨2, ![1, 128]⟩
abbrev S4096 : Shape := ⟨1, ![4096]⟩
abbrev S4096x1 : Shape := ⟨2, ![4096, 1]⟩
abbrev S4096x4 : Shape := ⟨2, ![4096, 4]⟩
abbrev S4096x256 : Shape := ⟨2, ![4096, 256]⟩
abbrev S1x256x128 : Shape := ⟨3, ![1, 256, 128]⟩
abbrev S256x128 : Shape := ⟨2, ![256, 128]⟩
abbrev S1x128x1 : Shape := ⟨3, ![1, 128, 1]⟩
abbrev S1x1 : Shape := ⟨2, ![1, 1]⟩
abbrev S4096x2 : Shape := ⟨2, ![4096, 2]⟩
abbrev S4096x3 : Shape := ⟨2, ![4096, 3]⟩
abbrev S131072x1 : Shape := ⟨2, ![131072, 1]⟩

abbrev nBuf : Space → Nat
  | .hbm => 9
  | .vmem => 9
  | .smem => 0
  | _ => 0

abbrev bufTy : (tb : Table) → Fin (tcTables nBuf tb) → BufTy
  | .hbm, ⟨0, _⟩ => ⟨S131072x128, .f32⟩
  | .hbm, ⟨1, _⟩ => ⟨S128x4, .f32⟩
  | .hbm, ⟨2, _⟩ => ⟨S4x256x128, .f32⟩
  | .hbm, ⟨3, _⟩ => ⟨S4x128, .f32⟩
  | .hbm, ⟨4, _⟩ => ⟨S4x128x1, .f32⟩
  | .hbm, ⟨5, _⟩ => ⟨S4x1, .f32⟩
  | .hbm, ⟨6, _⟩ => ⟨S4x256x128, .bf16⟩
  | .hbm, ⟨7, _⟩ => ⟨S1024x128, .f32⟩
  | .hbm, ⟨8, _⟩ => ⟨S131072x1, .f32⟩
  | .local _ .vmem, ⟨0, _⟩ => ⟨S4096x128, .f32⟩
  | .local _ .vmem, ⟨1, _⟩ => ⟨S4096x128, .f32⟩
  | .local _ .vmem, ⟨2, _⟩ => ⟨S128x4, .f32⟩
  | .local _ .vmem, ⟨3, _⟩ => ⟨S4x256x128, .bf16⟩
  | .local _ .vmem, ⟨4, _⟩ => ⟨S4x128, .f32⟩
  | .local _ .vmem, ⟨5, _⟩ => ⟨S4x128x1, .f32⟩
  | .local _ .vmem, ⟨6, _⟩ => ⟨S4x1, .f32⟩
  | .local _ .vmem, ⟨7, _⟩ => ⟨S32x128, .f32⟩
  | .local _ .vmem, ⟨8, _⟩ => ⟨S32x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S128x4_S128x4_0_0 : ∀ a, (![0, 0] : Fin 2 → Nat) a + S128x4.size a ≤ S128x4.size a
  h_S128x4 : 0 < S128x4.numel
  inb_S4x256x128_S4x256x128_0_0_0 : ∀ a, (![0, 0, 0] : Fin 3 → Nat) a + S4x256x128.size a ≤ S4x256x128.size a
  h_S4x256x128 : 0 < S4x256x128.numel
  shapeCasts_S4x256x128_S4x256x128 : S4x256x128.ShapeCasts S4x256x128
  inb_S4x128_S4x128_0_0 : ∀ a, (![0, 0] : Fin 2 → Nat) a + S4x128.size a ≤ S4x128.size a
  h_S4x128 : 0 < S4x128.numel
  inb_S4x128x1_S4x128x1_0_0_0 : ∀ a, (![0, 0, 0] : Fin 3 → Nat) a + S4x128x1.size a ≤ S4x128x1.size a
  h_S4x128x1 : 0 < S4x128x1.numel
  inb_S4x1_S4x1_0_0 : ∀ a, (![0, 0] : Fin 2 → Nat) a + S4x1.size a ≤ S4x1.size a
  h_S4x1 : 0 < S4x1.numel
  slices_S128x4_o0_0_S128x1 : S128x4.Slices ![0, 0] S128x1
  shapeCasts_S128x1_S128 : S128x1.ShapeCasts S128
  shapeCasts_S128_S1x128 : S128.ShapeCasts S1x128
  broadcasts_S1x128_S4096x128 : S1x128.Broadcasts S4096x128
  reduces_S4096x128_S4096 : S4096x128.Reduces [1] S4096
  shapeCasts_S4096_S4096x1 : S4096.ShapeCasts S4096x1
  slices_S128x4_o0_1_S128x1 : S128x4.Slices ![0, 1] S128x1
  slices_S128x4_o0_2_S128x1 : S128x4.Slices ![0, 2] S128x1
  slices_S128x4_o0_3_S128x1 : S128x4.Slices ![0, 3] S128x1
  concatenates_S4096x1_S4096x1_S4096x1_S4096x1_S4096x4_d1 : Shape.Concatenates [S4096x1, S4096x1, S4096x1, S4096x1] S4096x4 1
  concatenates_S4096x128_S4096x128_S4096x256_d1 : Shape.Concatenates [S4096x128, S4096x128] S4096x256 1
  slices_S4x256x128_o0_0_0_S1x256x128 : S4x256x128.Slices ![0, 0, 0] S1x256x128
  shapeCasts_S1x256x128_S256x128 : S1x256x128.ShapeCasts S256x128
  slices_S4x128_o0_0_S1x128 : S4x128.Slices ![0, 0] S1x128
  shapeCasts_S1x128_S128 : S1x128.ShapeCasts S128
  slices_S4x128x1_o0_0_0_S1x128x1 : S4x128x1.Slices ![0, 0, 0] S1x128x1
  shapeCasts_S1x128x1_S128 : S1x128x1.ShapeCasts S128
  slices_S4x1_o0_0_S1x1 : S4x1.Slices ![0, 0] S1x1
  inpos_S1x1_p0_0 : ∀ a, (![0, 0] : Fin 2 → Nat) a < S1x1.size a
  slices_S4x256x128_o1_0_0_S1x256x128 : S4x256x128.Slices ![1, 0, 0] S1x256x128
  slices_S4x128_o1_0_S1x128 : S4x128.Slices ![1, 0] S1x128
  slices_S4x128x1_o1_0_0_S1x128x1 : S4x128x1.Slices ![1, 0, 0] S1x128x1
  slices_S4x1_o1_0_S1x1 : S4x1.Slices ![1, 0] S1x1
  slices_S4x256x128_o2_0_0_S1x256x128 : S4x256x128.Slices ![2, 0, 0] S1x256x128
  slices_S4x128_o2_0_S1x128 : S4x128.Slices ![2, 0] S1x128
  slices_S4x128x1_o2_0_0_S1x128x1 : S4x128x1.Slices ![2, 0, 0] S1x128x1
  slices_S4x1_o2_0_S1x1 : S4x1.Slices ![2, 0] S1x1
  slices_S4x256x128_o3_0_0_S1x256x128 : S4x256x128.Slices ![3, 0, 0] S1x256x128
  slices_S4x128_o3_0_S1x128 : S4x128.Slices ![3, 0] S1x128
  slices_S4x128x1_o3_0_0_S1x128x1 : S4x128x1.Slices ![3, 0, 0] S1x128x1
  slices_S4x1_o3_0_S1x1 : S4x1.Slices ![3, 0] S1x1
  slices_S4096x4_o0_3_S4096x1 : S4096x4.Slices ![0, 3] S4096x1
  slices_S4096x4_o0_2_S4096x1 : S4096x4.Slices ![0, 2] S4096x1
  natLt_1_32 : 1 < 32
  reduces_S4096x1_S4096 : S4096x1.Reduces [1] S4096
  slices_S4096x4_o0_1_S4096x1 : S4096x4.Slices ![0, 1] S4096x1
  slices_S4096x4_o0_2_S4096x2 : S4096x4.Slices ![0, 2] S4096x2
  reduces_S4096x2_S4096 : S4096x2.Reduces [1] S4096
  slices_S4096x4_o0_0_S4096x1 : S4096x4.Slices ![0, 0] S4096x1
  slices_S4096x4_o0_1_S4096x3 : S4096x4.Slices ![0, 1] S4096x3
  reduces_S4096x3_S4096 : S4096x3.Reduces [1] S4096
  shapeCasts_S4096x1_S32x128 : S4096x1.ShapeCasts S32x128
  inb_S32x128_S32x128_0_0 : ∀ a, (![0, 0] : Fin 2 → Nat) a + S32x128.size a ≤ S32x128.size a
  h_S32x128 : 0 < S32x128.numel
  shapeCasts_S1024x128_S131072x1 : S1024x128.ShapeCasts S131072x1
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x128.size a ≤ S4x256x128.size a
  hwx0_2 : ∀ i : grid0.Coords, EltTy.bits .bf16 = 32 ∨ (Rect.block (s := S4x256x128) S4x256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x1.size a ≤ S4x128x1.size a
  hwx0_4 : ∀ i : grid0.Coords, EltTy.bits .f32 = 32 ∨ (Rect.block (s := S4x128x1) S4x128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1.size a ≤ S4x1.size a
  hwx0_5 : ∀ i : grid0.Coords, EltTy.bits .f32 = 32 ∨ (Rect.block (s := S4x1) S4x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S1024x128.size a
  hwx0_6 : ∀ i : grid0.Coords, EltTy.bits .f32 = 32 ∨ (Rect.block (s := S1024x128) S32x128.size (cc0_transform_6 i) (hinb0_6 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S32x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x4 : Shape := ⟨2, ![128, 4]⟩
abbrev S4x256x128 : Shape := ⟨3, ![4, 256, 128]⟩
abbrev S4x128 : Shape := ⟨2, ![4, 128]⟩
abbrev S4x128x1 : Shape := ⟨3, ![4, 128, 1]⟩
abbrev S4x1 : Shape := ⟨2, ![4, 1]⟩
abbrev S131072x4 : Shape := ⟨2, ![131072, 4]⟩
abbrev S_ : Shape := ⟨0, ![]⟩
abbrev S131072x256 : Shape := ⟨2, ![131072, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S1x128x1 : Shape := ⟨3, ![1, 128, 1]⟩
abbrev S128x1 : Shape := ⟨2, ![128, 1]⟩
abbrev S131072x1 : Shape := ⟨2, ![131072, 1]⟩
abbrev S1x1 : Shape := ⟨2, ![1, 1]⟩
abbrev S1 : Shape := ⟨1, ![1]⟩
abbrev S131072 : Shape := ⟨1, ![131072]⟩
abbrev S131072x3 : Shape := ⟨2, ![131072, 3]⟩
abbrev S131072x2 : Shape := ⟨2, ![131072, 2]⟩

abbrev nBuf : Space → Nat
  | .hbm => 144
  | .vmem => 0
  | .smem => 0
  | _ => 0

abbrev hbmTy0_0 (i : Nat) : BufTy := match i % 128 with
  | 0 => ⟨S131072x128, .f32⟩
  | 1 => ⟨S128x4, .f32⟩
  | 2 => ⟨S4x256x128, .f32⟩
  | 3 => ⟨S4x128, .f32⟩
  | 4 => ⟨S4x128x1, .f32⟩
  | 5 => ⟨S4x1, .f32⟩
  | 6 => ⟨S131072x4, .f32⟩
  | 7 => ⟨S_, .f32⟩
  | 8 => ⟨S131072x4, .f32⟩
  | 9 => ⟨S131072x4, .f32⟩
  | 10 => ⟨S131072x256, .f32⟩
  | 11 => ⟨S1x256x128, .f32⟩
  | 12 => ⟨S256x128, .f32⟩
  | 13 => ⟨S131072x128, .f32⟩
  | 14 => ⟨S1x128, .f32⟩
  | 15 => ⟨S128, .f32⟩
  | 16 => ⟨S1x128, .f32⟩
  | 17 => ⟨S131072x128, .f32⟩
  | 18 => ⟨S131072x128, .f32⟩
  | 19 => ⟨S_, .f32⟩
  | 20 => ⟨S131072x128, .f32⟩
  | 21 => ⟨S131072x128, .f32⟩
  | 22 => ⟨S1x128x1, .f32⟩
  | 23 => ⟨S128x1, .f32⟩
  | 24 => ⟨S131072x1, .f32⟩
  | 25 => ⟨S1x1, .f32⟩
  | 26 => ⟨S1, .f32⟩
  | 27 => ⟨S1x1, .f32⟩
  | 28 => ⟨S131072x1, .f32⟩
  | 29 => ⟨S131072x1, .f32⟩
  | 30 => ⟨S131072x1, .f32⟩
  | 31 => ⟨S131072, .f32⟩
  | 32 => ⟨S_, .f32⟩
  | 33 => ⟨S131072, .f32⟩
  | 34 => ⟨S131072, .i1⟩
  | 35 => ⟨S131072, .f32⟩
  | 36 => ⟨S131072x1, .f32⟩
  | 37 => ⟨S131072x3, .f32⟩
  | 38 => ⟨S_, .f32⟩
  | 39 => ⟨S131072, .f32⟩
  | 40 => ⟨S_, .f32⟩
  | 41 => ⟨S131072, .f32⟩
  | 42 => ⟨S131072, .i1⟩
  | 43 => ⟨S131072, .f32⟩
  | 44 => ⟨S131072x1, .f32⟩
  | 45 => ⟨S131072x1, .f32⟩
  | 46 => ⟨S131072x256, .f32⟩
  | 47 => ⟨S1x256x128, .f32⟩
  | 48 => ⟨S256x128, .f32⟩
  | 49 => ⟨S131072x128, .f32⟩
  | 50 => ⟨S1x128, .f32⟩
  | 51 => ⟨S128, .f32⟩
  | 52 => ⟨S1x128, .f32⟩
  | 53 => ⟨S131072x128, .f32⟩
  | 54 => ⟨S131072x128, .f32⟩
  | 55 => ⟨S_, .f32⟩
  | 56 => ⟨S131072x128, .f32⟩
  | 57 => ⟨S131072x128, .f32⟩
  | 58 => ⟨S1x128x1, .f32⟩
  | 59 => ⟨S128x1, .f32⟩
  | 60 => ⟨S131072x1, .f32⟩
  | 61 => ⟨S1x1, .f32⟩
  | 62 => ⟨S1, .f32⟩
  | 63 => ⟨S1x1, .f32⟩
  | 64 => ⟨S131072x1, .f32⟩
  | 65 => ⟨S131072x1, .f32⟩
  | 66 => ⟨S131072x1, .f32⟩
  | 67 => ⟨S131072, .f32⟩
  | 68 => ⟨S_, .f32⟩
  | 69 => ⟨S131072, .f32⟩
  | 70 => ⟨S131072, .i1⟩
  | 71 => ⟨S131072, .f32⟩
  | 72 => ⟨S131072x1, .f32⟩
  | 73 => ⟨S131072x2, .f32⟩
  | 74 => ⟨S_, .f32⟩
  | 75 => ⟨S131072, .f32⟩
  | 76 => ⟨S_, .f32⟩
  | 77 => ⟨S131072, .f32⟩
  | 78 => ⟨S131072, .i1⟩
  | 79 => ⟨S131072, .f32⟩
  | 80 => ⟨S131072x1, .f32⟩
  | 81 => ⟨S131072x1, .f32⟩
  | 82 => ⟨S131072x256, .f32⟩
  | 83 => ⟨S1x256x128, .f32⟩
  | 84 => ⟨S256x128, .f32⟩
  | 85 => ⟨S131072x128, .f32⟩
  | 86 => ⟨S1x128, .f32⟩
  | 87 => ⟨S128, .f32⟩
  | 88 => ⟨S1x128, .f32⟩
  | 89 => ⟨S131072x128, .f32⟩
  | 90 => ⟨S131072x128, .f32⟩
  | 91 => ⟨S_, .f32⟩
  | 92 => ⟨S131072x128, .f32⟩
  | 93 => ⟨S131072x128, .f32⟩
  | 94 => ⟨S1x128x1, .f32⟩
  | 95 => ⟨S128x1, .f32⟩
  | 96 => ⟨S131072x1, .f32⟩
  | 97 => ⟨S1x1, .f32⟩
  | 98 => ⟨S1, .f32⟩
  | 99 => ⟨S1x1, .f32⟩
  | 100 => ⟨S131072x1, .f32⟩
  | 101 => ⟨S131072x1, .f32⟩
  | 102 => ⟨S131072x1, .f32⟩
  | 103 => ⟨S131072, .f32⟩
  | 104 => ⟨S_, .f32⟩
  | 105 => ⟨S131072, .f32⟩
  | 106 => ⟨S131072, .i1⟩
  | 107 => ⟨S131072, .f32⟩
  | 108 => ⟨S131072x1, .f32⟩
  | 109 => ⟨S131072x1, .f32⟩
  | 110 => ⟨S_, .f32⟩
  | 111 => ⟨S131072, .f32⟩
  | 112 => ⟨S_, .f32⟩
  | 113 => ⟨S131072, .f32⟩
  | 114 => ⟨S131072, .i1⟩
  | 115 => ⟨S131072, .f32⟩
  | 116 => ⟨S131072x1, .f32⟩
  | 117 => ⟨S131072x1, .f32⟩
  | 118 => ⟨S131072x256, .f32⟩
  | 119 => ⟨S1x256x128, .f32⟩
  | 120 => ⟨S256x128, .f32⟩
  | 121 => ⟨S131072x128, .f32⟩
  | 122 => ⟨S1x128, .f32⟩
  | 123 => ⟨S128, .f32⟩
  | 124 => ⟨S1x128, .f32⟩
  | 125 => ⟨S131072x128, .f32⟩
  | 126 => ⟨S131072x128, .f32⟩
  | 127 => ⟨S_, .f32⟩
  | _ => ⟨S131072x128, .f32⟩

abbrev hbmTy0_1 (i : Nat) : BufTy := match i % 128 with
  | 0 => ⟨S131072x128, .f32⟩
  | 1 => ⟨S131072x128, .f32⟩
  | 2 => ⟨S1x128x1, .f32⟩
  | 3 => ⟨S128x1, .f32⟩
  | 4 => ⟨S131072x1, .f32⟩
  | 5 => ⟨S1x1, .f32⟩
  | 6 => ⟨S1, .f32⟩
  | 7 => ⟨S1x1, .f32⟩
  | 8 => ⟨S131072x1, .f32⟩
  | 9 => ⟨S131072x1, .f32⟩
  | 10 => ⟨S131072x1, .f32⟩
  | 11 => ⟨S131072x1, .f32⟩
  | 12 => ⟨S131072x1, .f32⟩
  | 13 => ⟨S131072x1, .f32⟩
  | 14 => ⟨S131072x1, .f32⟩
  | 15 => ⟨S131072x1, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_0 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call2_cst : Ref sig .tc := ⟨.hbm, 55, rfl⟩
abbrev main_call2_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_2 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_3 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_call3_cst : Ref sig .tc := ⟨.hbm, 91, rfl⟩
abbrev main_call3_v0 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_5 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_6 : Ref sig .tc := ⟨.hbm, 110, rfl⟩
abbrev main_v89 : Ref sig .tc := ⟨.hbm, 111, rfl⟩
abbrev main_cst_7 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_call4_cst : Ref sig .tc := ⟨.hbm, 127, rfl⟩
abbrev main_call4_v0 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩

abbrev nD : Nat := 1
abbrev τ : Topo := Topo.v7x

variable {F : FTy → Type} [FloatOps F]

class Facts₀ : Prop where
  bcast_S_S131072x4 : S_.BroadcastsInDim S131072x4 (![] : Fin 0 → Fin S131072x4.rank)
  concatenates_S131072x128_S131072x128_S131072x256_d1 : Shape.Concatenates [S131072x128, S131072x128] S131072x256 1
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  slices_S4x128x1_S1x128x1_0_0_0 : S4x128x1.Slices ![0, 0, 0] S1x128x1
  shapeCasts_S1x128x1_S128x1 : S1x128x1.ShapeCasts S128x1
  slices_S4x1_S1x1_0_0 : S4x1.Slices ![0, 0] S1x1
  shapeCasts_S1x1_S1 : S1x1.ShapeCasts S1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  slices_S131072x4_S131072x1_0_0 : S131072x4.Slices ![0, 0] S131072x1
  shapeCasts_S131072x1_S131072 : S131072x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S131072x4_S131072x3_0_1 : S131072x4.Slices ![0, 1] S131072x3
  reducesTo_S131072x3_S131072_d1 : S131072x3.ReducesTo [1] S131072
  h_S_ : 0 < S_.numel
  slices_S4x256x128_S1x256x128_1_0_0 : S4x256x128.Slices ![1, 0, 0] S1x256x128
  slices_S4x128_S1x128_1_0 : S4x128.Slices ![1, 0] S1x128
  slices_S4x128x1_S1x128x1_1_0_0 : S4x128x1.Slices ![1, 0, 0] S1x128x1
  slices_S4x1_S1x1_1_0 : S4x1.Slices ![1, 0] S1x1
  slices_S131072x4_S131072x1_0_1 : S131072x4.Slices ![0, 1] S131072x1
  slices_S131072x4_S131072x2_0_2 : S131072x4.Slices ![0, 2] S131072x2
  reducesTo_S131072x2_S131072_d1 : S131072x2.ReducesTo [1] S131072
  slices_S4x256x128_S1x256x128_2_0_0 : S4x256x128.Slices ![2, 0, 0] S1x256x128
  slices_S4x128_S1x128_2_0 : S4x128.Slices ![2, 0] S1x128
  slices_S4x128x1_S1x128x1_2_0_0 : S4x128x1.Slices ![2, 0, 0] S1x128x1
  slices_S4x1_S1x1_2_0 : S4x1.Slices ![2, 0] S1x1
  slices_S131072x4_S131072x1_0_2 : S131072x4.Slices ![0, 2] S131072x1
  slices_S131072x4_S131072x1_0_3 : S131072x4.Slices ![0, 3] S131072x1
  reducesTo_S131072x1_S131072_d1 : S131072x1.ReducesTo [1] S131072
  slices_S4x256x128_S1x256x128_3_0_0 : S4x256x128.Slices ![3, 0, 0] S1x256x128
  slices_S4x128_S1x128_3_0 : S4x128.Slices ![3, 0] S1x128
  slices_S4x128x1_S1x128x1_3_0_0 : S4x128x1.Slices ![3, 0, 0] S1x128x1
  slices_S4x1_S1x1_3_0 : S4x1.Slices ![3, 0] S1x1
  dot_S131072x128_S128x4_S131072x4_1_0_0_1_n_n_wf : DotDims.WF S131072x128 S128x4 S131072x4 [1] [0] [0] [1] [] []
  dot_S131072x256_S256x128_S131072x128_1_0_0_1_n_n_wf : DotDims.WF S131072x256 S256x128 S131072x128 [1] [0] [0] [1] [] []
  dot_S131072x128_S128x1_S131072x1_1_0_0_1_n_n_wf : DotDims.WF S131072x128 S128x1 S131072x1 [1] [0] [0] [1] [] []

variable [Facts₀]

def dot_S131072x128_S128x4_S131072x4_1_0_0_1_n_n : DotDims S131072x128 S128x4 S131072x4 where
  lhsContracting := [1]
  rhsContracting := [0]
  lhsNonContracting := [0]
  rhsNonContracting := [1]
  lhsBatch := []
  rhsBatch := []
  wf := dot_S131072x128_S128x4_S131072x4_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x1_S131072x1_1_0_0_1_n_n : DotDims S131072x128 S128x1 S131072x1 where
  lhsContracting := [1]
  rhsContracting := [0]
  lhsNonContracting := [0]
  rhsNonContracting := [1]
  lhsBatch := []
  rhsBatch := []
  wf := dot_S131072x128_S128x1_S131072x1_1_0_0_1_n_n_wf

class Facts : Prop extends Facts₀ where

variable [Facts]
-- ==== Proof.MoeSpec.lean ====
/-
  The routed four-depth estimator, one input row at a time, over the extended reals.

  For a row x of 128 features and parameters (router Wr [128,4]; layer weights W [4,256,128] and biases b [4,128];
  estimator weights We [4,128,1] and biases be [4,1]):

    gate l       = max (∑ k, x k · Wr(k,l)) 0                                   l = 0..3
    cur 0        = layer 0 x x,   cur (d+1) = layer (d+1) (cur d) x
    layer d p x  = fun j => max ((∑ k : Fin 256, (p ‖ x) k · W(d,k,j)) + b(d,j)) 0    (p ‖ x: the two rows side by side)
    pred d       = (∑ k, cur d k · We(d,k,0)) + be(d,0)

  and the routed combination, from the deepest estimate outwards,

    out = [gate 0 > 0] · pred 0 + [later 0] · ([gate 1 > 0] · pred 1 + [later 1] · ([gate 2 > 0] · pred 2 + [later 2] · pred 3))

  where [later d] is the indicator that some gate deeper than d is positive. That indicator can be taken of the
  MAXIMUM of the deeper gates (from -∞) or of their SUM: every gate is a maximum with 0, hence nonnegative, and a
  finite family of nonnegative extended reals has a positive maximum exactly when it has a positive sum
  (`rowOut_max_eq_sum`). Nothing here needs the entries to be finite.
-/
import Idealize.ShloMosaic.Lib.ValueIdx
import Idealize.ShloMosaic.PureOps.Ideal.Laws

noncomputable section

namespace Cert.Moe

open Idealize.ShloMosaic Idealize.ShloMosaic.ValueIdx

/-- The parameters: router, layer weights and biases, estimator weights and biases. -/
structure Params where
  wr : (⟨2, ![128, 4]⟩ : Shape).Idx → EReal
  w : (⟨3, ![4, 256, 128]⟩ : Shape).Idx → EReal
  bl : (⟨2, ![4, 128]⟩ : Shape).Idx → EReal
  we : (⟨3, ![4, 128, 1]⟩ : Shape).Idx → EReal
  be : (⟨2, ![4, 1]⟩ : Shape).Idx → EReal

/-- Two rows of 128 side by side: a row of 256. -/
def cat (a b : Fin 128 → EReal) (k : Fin 256) : EReal :=
  if h : k.val < 128 then a ⟨k.val, h⟩ else b ⟨k.val - 128, by omega⟩

/-- The router's gate l of a row: the rectified logit. -/
def gate (ω : Params) (x : Fin 128 → EReal) (l : Fin 4) : EReal :=
  max (∑ k : Fin 128, x k * ω.wr (ix2 k l)) 0

/-- Layer d on the previous layer's row beside the input row: affine, then rectified. -/
def layer (ω : Params) (d : Fin 4) (prev x : Fin 128 → EReal) (j : Fin 128) : EReal :=
  max ((∑ k : Fin 256, cat prev x k * ω.w (ix3 d k j)) + ω.bl (ix2 d j)) 0

/-- The estimator at depth d of that depth's activations. -/
def pred (ω : Params) (d : Fin 4) (cur : Fin 128 → EReal) : EReal :=
  (∑ k : Fin 128, cur k * ω.we (ix3 d k (0 : Fin 1))) + ω.be (ix2 d (0 : Fin 1))

/-- The indicator of positivity, as an extended real. -/
def ind (a : EReal) : EReal := if 0 < a then 1 else 0

/-- The maximum of a finite family, from -∞. -/
def anyMax (n : ℕ) (f : Fin n → EReal) : EReal := (Finset.univ : Finset (Fin n)).fold max ⊥ f

/-- The sum of a finite family. -/
def anySum (n : ℕ) (f : Fin n → EReal) : EReal := ∑ c : Fin n, f c

/-- The gates deeper than depth 0, 1, 2. -/
def tail1 (g : Fin 4 → EReal) (c : Fin 3) : EReal := g ⟨c.val + 1, by omega⟩
def tail2 (g : Fin 4 → EReal) (c : Fin 2) : EReal := g ⟨c.val + 2, by omega⟩
def tail3 (g : Fin 4 → EReal) (c : Fin 1) : EReal := g ⟨c.val + 3, by omega⟩

/-- The routed combination of the four estimates `P` under the gates `g`; `any` measures the deeper gates. -/
def combine (any : (n : ℕ) → (Fin n → EReal) → EReal) (g P : Fin 4 → EReal) : EReal :=
  ind (g 0) * P 0 + ind (any 3 (tail1 g)) * (ind (g 1) * P 1 + ind (any 2 (tail2 g)) * (ind (g 2) * P 2 + ind (any 1 (tail3 g)) * P 3))

/-- The activations at the four depths. -/
def cur0 (ω : Params) (x : Fin 128 → EReal) : Fin 128 → EReal := layer ω 0 x x
def cur1 (ω : Params) (x : Fin 128 → EReal) : Fin 128 → EReal := layer ω 1 (cur0 ω x) x
def cur2 (ω : Params) (x : Fin 128 → EReal) : Fin 128 → EReal := layer ω 2 (cur1 ω x) x
def cur3 (ω : Params) (x : Fin 128 → EReal) : Fin 128 → EReal := layer ω 3 (cur2 ω x) x

/-- The four estimates. -/
def preds (ω : Params) (x : Fin 128 → EReal) : Fin 4 → EReal
  | ⟨0, _⟩ => pred ω 0 (cur0 ω x)
  | ⟨1, _⟩ => pred ω 1 (cur1 ω x)
  | ⟨2, _⟩ => pred ω 2 (cur2 ω x)
  | ⟨3, _⟩ => pred ω 3 (cur3 ω x)

/-- The routed estimate of one row. -/
def rowOut (any : (n : ℕ) → (Fin n → EReal) → EReal) (ω : Params) (x : Fin 128 → EReal) : EReal :=
  combine any (gate ω x) (preds ω x)

/-- The routed estimate of every row of a [131072, 128] input, as a [131072, 1] array. -/
def out (any : (n : ℕ) → (Fin n → EReal) → EReal) (ω : Params) (X : (⟨2, ![131072, 128]⟩ : Shape).Idx → EReal) :
    (⟨2, ![131072, 1]⟩ : Shape).Idx → EReal :=
  fun i => rowOut any ω (fun k => X (ix2 (i 0) k))

/-! ## A positive maximum is a positive sum, for nonnegative families -/

theorem gate_nonneg (ω : Params) (x : Fin 128 → EReal) (l : Fin 4) : 0 ≤ gate ω x l := le_max_right _ _

/-- Some member of the family is positive exactly when its maximum from -∞ is. -/
theorem anyMax_pos_iff {n : ℕ} (f : Fin n → EReal) : 0 < anyMax n f ↔ ∃ c, 0 < f c := by
  unfold anyMax
  rw [Finset.lt_fold_max]
  constructor
  · rintro (h | ⟨c, _, hc⟩)
    · exact absurd h (not_lt_bot)
    · exact ⟨c, hc⟩
  · rintro ⟨c, hc⟩
    exact Or.inr ⟨c, Finset.mem_univ c, hc⟩

/-- Some member of a nonnegative family is positive exactly when its sum is. -/
theorem anySum_pos_iff {n : ℕ} (f : Fin n → EReal) (hf : ∀ c, 0 ≤ f c) : 0 < anySum n f ↔ ∃ c, 0 < f c := by
  unfold anySum
  constructor
  · intro h
    by_contra hne
    have hz : ∀ c ∈ (Finset.univ : Finset (Fin n)), f c = 0 := fun c _ =>
      le_antisymm (not_lt.mp fun hc => hne ⟨c, hc⟩) (hf c)
    rw [Finset.sum_eq_zero hz] at h
    exact lt_irrefl _ h
  · rintro ⟨c, hc⟩
    exact lt_of_lt_of_le hc (Finset.single_le_sum (fun i _ => hf i) (Finset.mem_univ c))

theorem ind_anyMax_eq_anySum {n : ℕ} (f : Fin n → EReal) (hf : ∀ c, 0 ≤ f c) : ind (anyMax n f) = ind (anySum n f) := by
  unfold ind
  by_cases h : ∃ c, 0 < f c
  · rw [if_pos ((anyMax_pos_iff f).mpr h), if_pos ((anySum_pos_iff f hf).mpr h)]
  · rw [if_neg (fun h' => h ((anyMax_pos_iff f).mp h')), if_neg (fun h' => h ((anySum_pos_iff f hf).mp h'))]

/-- Under nonnegative gates the combination does not depend on which of the two measures of the deeper gates is used. -/
theorem combine_max_eq_sum (g P : Fin 4 → EReal) (hg : ∀ l, 0 ≤ g l) : combine anyMax g P = combine anySum g P := by
  unfold combine
  rw [ind_anyMax_eq_anySum (tail1 g) (fun c => hg _), ind_anyMax_eq_anySum (tail2 g) (fun c => hg _),
    ind_anyMax_eq_anySum (tail3 g) (fun c => hg _)]

theorem rowOut_max_eq_sum (ω : Params) (x : Fin 128 → EReal) : rowOut anyMax ω x = rowOut anySum ω x :=
  combine_max_eq_sum _ _ (gate_nonneg ω x)

theorem out_max_eq_sum (ω : Params) (X : (⟨2, ![131072, 128]⟩ : Shape).Idx → EReal) : out anyMax ω X = out anySum ω X :=
  funext fun _ => rowOut_max_eq_sum ω _

/-! ## The two printed forms of the indicator -/

/-- A one-bit comparison `a > 0`, widened to 32 bits and read as a signed integer, is the indicator. -/
theorem ind_of_signed (a : EReal) : ((((Ideal.cmp .ogt a 0).setWidth 32).toInt : ℝ) : EReal) = ind a := by
  unfold ind Ideal.cmp
  by_cases h : (0 : EReal) < a
  · rw [if_pos h]; simp [h]
  · rw [if_neg h]; simp [h]

/-- A one-bit comparison `a > 0` read as an unsigned integer is the indicator. -/
theorem ind_of_unsigned (a : EReal) : (((Ideal.cmp .ogt a 0).toNat : ℝ) : EReal) = ind a := by
  unfold ind Ideal.cmp
  by_cases h : (0 : EReal) < a
  · rw [if_pos h]; simp [h]
  · rw [if_neg h]; simp [h]

/-- The word of -∞ denotes the bottom of the extended reals. -/
theorem ofBits_neg_inf : Ideal.ofBits .f32 0xFF800000#32 = ⊥ := by simp [Ideal.ofBits, Ideal.ieee]

end Cert.Moe

end
-- ==== Proof.KernelCommon.lean ====
/-
  Names shared by the modules that read the kernel body's values: the parameters as the body loads them, and one row
  of the input block.
-/
import proofs.«175448_j56392920597063_2_alg».proof.Proof.Gen.KernelIdeal.Skeleton
import proofs.«175448_j56392920597063_2_alg».proof.Proof.MoeSpec
import Idealize.ShloMosaic.Lib.ValueIdx

set_option synthInstance.maxSize 4096

noncomputable section

namespace Cert.KernelIdeal.Body

open Idealize.ShloMosaic Idealize.ShloMosaic.ValueIdx Cert.KernelIdeal Cert.KernelIdeal.Gen

/-- The parameters, from the five parameter blocks the body loads (router, layer weights, layer biases, estimator
    weights, estimator biases). -/
abbrev par (x1 : FVec Ideal S128x4 .f32) (x2 : FVec Ideal S4x256x128 .bf16) (x3 : FVec Ideal S4x128 .f32)
    (x4 : FVec Ideal S4x128x1 .f32) (x5 : FVec Ideal S4x1 .f32) : Cert.Moe.Params := ⟨x1, x2, x3, x4, x5⟩

/-- Row p of a [4096, 128] block. -/
abbrev row (x0 : FVec Ideal S4096x128 .f32) (p : Fin 4096) : Fin 128 → EReal := fun k => x0 (ix2 p k)

end Cert.KernelIdeal.Body

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«175448_j56392920597063_2_alg».proof.Proof.LibKeepdims
import proofs.«175448_j56392920597063_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.LibTileMask.lean ====
import Idealize.ShloMosaic.Lib.ValueIdx
import Idealize.ShloMosaic.Lib.ValueLayout
import Idealize.ShloMosaic.Lib.Pipeline.Value
noncomputable section
namespace Cert.TileMask
open Idealize.ShloMosaic Idealize.ShloMosaic.ValueIdx

/-- A natural number below 2^31, written as a 32-bit word and read back signed, is itself. -/
private theorem toInt_ofNat_small (m : ℕ) (h : m < 2 ^ 31) : (BitVec.ofNat 32 m).toInt = (m : ℤ) := by
  have hm : m % 2 ^ 32 = m := Nat.mod_eq_of_lt (by omega)
  rw [BitVec.toInt_eq_toNat_cond, BitVec.toNat_ofNat, hm]
  split
  · rfl
  · omega

/-- In tile v of width W, the test "global column v·W + j is below n" (a signed 32-bit comparison of v·W + iota against n, all below 2^31) reads 1 exactly when v·W + j < n. -/
theorem col_lt_apply {a b : ℕ} (hio : (⟨2, ![a, b]⟩ : Shape).Iotas .tc 32 [(1 : Fin 2)]) (v W n : ℕ)
    (hv : v * W + b < 2 ^ 31) (hn : n < 2 ^ 31) (p : Fin a) (j : Fin b) :
    cmpi .slt (addi (broadcast ⟨2, ![a, b]⟩ (Scalar.muli (BitVec.ofNat 32 v) (BitVec.ofNat 32 W))) (iota .tc ⟨2, ![a, b]⟩ 32 [1] hio))
        (broadcast ⟨2, ![a, b]⟩ (BitVec.ofNat 32 n)) (ix2 p j)
      = if v * W + j.val < n then 1#1 else 0#1 := by
  have hj := j.isLt
  -- at the index (p, j) the comparison is the signed comparison of the words v·W + (iota at (p, j)) and n
  show IntOp.cmpi .slt (IntOp.addi (Scalar.muli (BitVec.ofNat 32 v) (BitVec.ofNat 32 W))
      (iota .tc ⟨2, ![a, b]⟩ 32 [1] hio (ix2 p j))) (BitVec.ofNat 32 n) = _
  -- the iota along axis 1 reads the column coordinate j
  rw [iota_single_apply]
  show BitVec.ofBool ((BitVec.ofNat 32 v * BitVec.ofNat 32 W + BitVec.ofNat 32 j.val).slt (BitVec.ofNat 32 n)) = _
  -- the word arithmetic is the arithmetic of naturals, and both sides read signed are the naturals themselves
  rw [← BitVec.ofNat_mul, ← BitVec.ofNat_add, BitVec.slt, toInt_ofNat_small _ (by omega), toInt_ofNat_small _ hn]
  by_cases h : v * W + j.val < n
  · have h' : ((v * W + j.val : ℕ) : ℤ) < (n : ℤ) := by exact_mod_cast h
    rw [if_pos h, decide_eq_true h']
    rfl
  · have h' : ¬ ((v * W + j.val : ℕ) : ℤ) < (n : ℤ) := by exact_mod_cast h
    rw [if_neg h, decide_eq_false h']
    rfl

/-- A vector [b] cast to a row [1, b] and spread down the rows to [a, b] reads, at (p, j), the vector's entry j. -/
theorem row_bcast_apply {α : Type} {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ x hc) hb (ix2 p j) = x (ix1 j) := by
  rw [broadcastTo_1b_ab_apply, shapeCast_a_1a_apply]

/-- The column test at 1008 rows, tiles of 4096 columns, fewer than 13 tiles and 50257 columns in all. -/
example (v : ℕ) (hv : v < 13) (p : Fin 1008) (j : Fin 4096) :
    cmpi .slt (addi (broadcast ⟨2, ![1008, 4096]⟩ (Scalar.muli (BitVec.ofNat 32 v) 4096#32))
        (iota .tc ⟨2, ![1008, 4096]⟩ 32 [1] (by decide))) (broadcast ⟨2, ![1008, 4096]⟩ 50257#32) (ix2 p j)
      = if v * 4096 + j.val < 50257 then 1#1 else 0#1 :=
  col_lt_apply (by decide) v 4096 50257 (by omega) (by norm_num) p j

end Cert.TileMask
end
-- ==== Proof.KGates.lean ====
/-
  The four router gates of the body, read at a row: gate l of row p is max (∑ k, x(p,k) · Wr(k,l)) 0.
-/
import proofs.«175448_j56392920597063_2_alg».proof.Proof.KernelCommon
import proofs.«175448_j56392920597063_2_alg».proof.Proof.LibRowReduce
import proofs.«175448_j56392920597063_2_alg».proof.Proof.LibKeepdims
import proofs.«175448_j56392920597063_2_alg».proof.Proof.LibTileMask

set_option synthInstance.maxSize 4096

noncomputable section

namespace Cert.KernelIdeal.Body

open Idealize.ShloMosaic Idealize.ShloMosaic.ValueIdx Cert.KernelIdeal Cert.KernelIdeal.Gen
variable (x0 : FVec Ideal S4096x128 .f32) (x1 : FVec Ideal S128x4 .f32) (v3 : FVec Ideal S4x256x128 .bf16)
  (x3 : FVec Ideal S4x128 .f32) (x4 : FVec Ideal S4x128x1 .f32) (x5 : FVec Ideal S4x1 .f32)

/-- Column o of the router block, as a vector of 128 entries, at k: the block's entry (k, o). -/
private theorem router_col (w : FVec Ideal S128x4 .f32) (o : Fin 4) (hs : S128x4.Slices ![0, o.val] S128x1) (k : Fin 128) :
    shapeCast S128 (extractStridedSlice S128x1 ![0, o.val] w hs) shapeCasts_S128x1_S128 (ix1 k) = w (ix2 k o) := by
  refine (shapeCast_apply _ shapeCasts_S128x1_S128 (ix1 k) (ix2 k (0 : Fin 1)) ?_).trans ?_
  · rw [Shape.rowMajor_val_two, Shape.rowMajor_val_one]
    show k.val * 1 + 0 = k.val
    omega
  · refine extractStridedSlice_apply _ w hs (ix2 k (0 : Fin 1)) (ix2 k o) fun a => ?_
    match a with
    | ⟨0, _⟩ => show k.val = 0 + k.val; omega
    | ⟨1, _⟩ => show o.val = o.val + 0; omega

/-- The products of a block's rows with one router column, summed along the lanes and rectified: at (p, u) the
    rectified inner product of row p with that column. -/
private theorem gate_col (x : FVec Ideal S4096x128 .f32) (w : FVec Ideal S128x4 .f32) (o : Fin 4)
    (hs : S128x4.Slices ![0, o.val] S128x1) (p : Fin 4096) (u : Fin 1) :
    maximumf (shapeCast S4096x1 (multiReduction .add [1] S4096 (mulf x (broadcastTo S4096x128 (shapeCast S1x128
        (shapeCast S128 (extractStridedSlice S128x1 ![0, o.val] w hs) shapeCasts_S128x1_S128) shapeCasts_S128_S1x128)
        broadcasts_S1x128_S4096x128)) 0x00000000#32 reduces_S4096x128_S4096 (.inl rfl) rfl) shapeCasts_S4096_S4096x1)
        (broadcast S4096x1 (Scalar.ofBits .f32 0x00000000#32)) (ix2 p u)
      = max (∑ k : Fin 128, x (ix2 p k) * w (ix2 k o)) 0 := by
  rw [maximumf_apply, broadcast_apply]
  show max _ (Ideal.ofBits .f32 0x00000000#32) = _
  rw [Ideal.ofBits_zero_f32, Cert.Keepdims.shapeCast_a_a1_apply]
  refine congrArg (fun t => max t 0) ?_
  refine (Cert.RowReduce.rowSum_apply _ _ reduces_S4096x128_S4096 _ _ p).trans ?_
  refine Finset.sum_congr rfl fun k _ => ?_
  rw [mulf_apply, Cert.TileMask.row_bcast_apply, router_col]

/-- Four columns joined side by side: at (p, l) the joined array reads column l at (p, 0). -/
private theorem join4_apply {α : Type} (c0 c1 c2 c3 : S4096x1.Idx → α)
    (h : Shape.Concatenates [S4096x1, S4096x1, S4096x1, S4096x1] S4096x4 1) (p : Fin 4096) (l : Fin 4) :
    concatenate S4096x4 1 [⟨S4096x1, c0⟩, ⟨S4096x1, c1⟩, ⟨S4096x1, c2⟩, ⟨S4096x1, c3⟩] h (ix2 p l)
      = (![c0, c1, c2, c3] l) (ix2 p (0 : Fin 1)) := by
  match l with
  | ⟨0, _⟩ =>
    refine concatenate_apply_piece (t := S4096x4) 1 [⟨S4096x1, c0⟩, ⟨S4096x1, c1⟩, ⟨S4096x1, c2⟩, ⟨S4096x1, c3⟩] h _ 0 (by simp)
      S4096x1 c0 rfl rfl 0 rfl (ix2 p (0 : Fin 1)) (fun b hb => ?_) ?_
    · match b with
      | ⟨0, _⟩ => rfl
      | ⟨1, _⟩ => exact absurd rfl hb
    · rfl
  | ⟨1, _⟩ =>
    refine concatenate_apply_piece (t := S4096x4) 1 [⟨S4096x1, c0⟩, ⟨S4096x1, c1⟩, ⟨S4096x1, c2⟩, ⟨S4096x1, c3⟩] h _ 1 (by simp)
      S4096x1 c1 rfl rfl 1 rfl (ix2 p (0 : Fin 1)) (fun b hb => ?_) ?_
    · match b with
      | ⟨0, _⟩ => rfl
      | ⟨1, _⟩ => exact absurd rfl hb
    · rfl
  | ⟨2, _⟩ =>
    refine concatenate_apply_piece (t := S4096x4) 1 [⟨S4096x1, c0⟩, ⟨S4096x1, c1⟩, ⟨S4096x1, c2⟩, ⟨S4096x1, c3⟩] h _ 2 (by simp)
      S4096x1 c2 rfl rfl 2 rfl (ix2 p (0 : Fin 1)) (fun b hb => ?_) ?_
    · match b with
      | ⟨0, _⟩ => rfl
      | ⟨1, _⟩ => exact absurd rfl hb
    · rfl
  | ⟨3, _⟩ =>
    refine concatenate_apply_piece (t := S4096x4) 1 [⟨S4096x1, c0⟩, ⟨S4096x1, c1⟩, ⟨S4096x1, c2⟩, ⟨S4096x1, c3⟩] h _ 3 (by simp)
      S4096x1 c3 rfl rfl 3 rfl (ix2 p (0 : Fin 1)) (fun b hb => ?_) ?_
    · match b with
      | ⟨0, _⟩ => rfl
      | ⟨1, _⟩ => exact absurd rfl hb
    · rfl

/-- The [4096, 4] array of gates at (p, l) is gate l of row p. -/
theorem gates_apply (p : Fin 4096) (l : Fin 4) :
    k0_pay7 (F := Ideal) (k0_pay3 x0 x1) (k0_pay4 x0 x1) (k0_pay5 x0 x1) (k0_pay6 x0 x1) (ix2 p l)
      = Cert.Moe.gate (par x1 v3 x3 x4 x5) (row x0 p) l := by
  -- the joined array at (p, l) is column l at (p, 0), and each column is the rectified inner product
  refine (join4_apply _ _ _ _ concatenates_S4096x1_S4096x1_S4096x1_S4096x1_S4096x4_d1 p l).trans ?_
  match l with
  | ⟨0, _⟩ => exact gate_col x0 x1 0 slices_S128x4_o0_0_S128x1 p 0
  | ⟨1, _⟩ => exact gate_col x0 x1 1 slices_S128x4_o0_1_S128x1 p 0
  | ⟨2, _⟩ => exact gate_col x0 x1 2 slices_S128x4_o0_2_S128x1 p 0
  | ⟨3, _⟩ => exact gate_col x0 x1 3 slices_S128x4_o0_3_S128x1 p 0

/-- Column 2 of a [4096, 4] array tested for positivity, as 0 / 1. -/
theorem pay15_apply (g : FVec Ideal S4096x4 .f32) (p : Fin 4096) :
    k0_pay15 g (ix2 p (0 : Fin 1)) = Cert.Moe.ind (g (ix2 p (2 : Fin 4))) := by
  unfold k0_pay15
  rw [sitofp_apply, extui_apply, cmpf_apply, broadcast_apply, Ideal.cmpf_def]
  show ((((Ideal.cmp .ogt _ (Ideal.ofBits .f32 0x00000000#32)).setWidth 32).toInt : ℝ) : EReal) = _
  rw [Ideal.ofBits_zero_f32, Cert.Moe.ind_of_signed]
  refine congrArg Cert.Moe.ind ?_
  refine extractStridedSlice_apply _ g slices_S4096x4_o0_2_S4096x1 (ix2 p (0 : Fin 1)) (ix2 p (2 : Fin 4)) fun a => ?_
  match a with
  | ⟨0, _⟩ => show p.val = 0 + p.val; omega
  | ⟨1, _⟩ => rfl

/-- Column 3 of a [4096, 4] array. -/
theorem pay16_apply (g : FVec Ideal S4096x4 .f32) (p : Fin 4096) :
    k0_pay16 g (ix2 p (0 : Fin 1)) = g (ix2 p (3 : Fin 4)) := by
  unfold k0_pay16
  refine extractStridedSlice_apply _ g slices_S4096x4_o0_3_S4096x1 (ix2 p (0 : Fin 1)) (ix2 p (3 : Fin 4)) fun a => ?_
  match a with
  | ⟨0, _⟩ => show p.val = 0 + p.val; omega
  | ⟨1, _⟩ => rfl

end Cert.KernelIdeal.Body

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibSageLayer.lean ====
/-
  One layer of a graph network with mean aggregation, over the extended reals: the pieces its two spellings share.

  The layer's entry (p, q) is  max( x(p,·)·ws(·,q) + bs(q) + nei(p,·)·wn(·,q) + bn(q), 0 ).
  One spelling forms the two products separately and adds the biases one at a time. The other lays x and nei side by
  side along the columns, stacks ws on wn along the rows, forms ONE product over the doubled axis and adds bs + bn.

  * `entry_eq`: the two spellings agree. A sum over an axis of length K + K is the sum over its first K positions plus
    the sum over its last K; the rest is commutativity and associativity of addition, which hold on all extended reals
    (no entry need be finite).
  * `cat_cols_left` / `cat_cols_right`, `cat_rows_left` / `cat_rows_right`: a two-piece concatenation of matrices read at
    an entry of either piece, along the columns and along the rows.
  * `dotGeneral_rows_cols`: a host matrix product [A, K] · [K, B] read at (p, q) is ∑ k, L(p,k) · R(k,q), for any
    dimension record whose index facts are supplied.
-/
import Idealize.ShloMosaic.Lib.ValueIdx
import Idealize.ShloMosaic.Lib.Pipeline.Value
import Idealize.ShloMosaic.PureOps.Ideal.Laws

noncomputable section

namespace Cert.SageLayer

open Idealize.ShloMosaic Idealize.ShloMosaic.ValueIdx

/-- The concatenated spelling of one entry equals the separate one. `cr` is a row of the side-by-side matrix (its
    first K entries the row `xr` of x, its last K the row `nr` of nei), `wq` a column of the stacked weights (first K
    entries the column `wsq` of ws, last K the column `wnq` of wn). -/
theorem entry_eq {K K2 : ℕ} (hK : K2 = K + K) (cr wq : Fin K2 → EReal) (xr nr wsq wnq : Fin K → EReal)
    (hcl : ∀ k : Fin K, cr ⟨k.val, by omega⟩ = xr k) (hcr : ∀ k : Fin K, cr ⟨K + k.val, by omega⟩ = nr k)
    (hwl : ∀ k : Fin K, wq ⟨k.val, by omega⟩ = wsq k) (hwr : ∀ k : Fin K, wq ⟨K + k.val, by omega⟩ = wnq k)
    (bs bn : EReal) :
    max ((∑ k, cr k * wq k) + (bs + bn)) 0
      = max ((((∑ k, xr k * wsq k) + bs) + ∑ k, nr k * wnq k) + bn) 0 := by
  subst hK
  -- the doubled axis splits into its two halves
  rw [Fin.sum_univ_add]
  have h1 : ∀ k : Fin K, cr (Fin.castAdd K k) * wq (Fin.castAdd K k) = xr k * wsq k := fun k => by
    rw [← hcl k, ← hwl k]; rfl
  have h2 : ∀ k : Fin K, cr (Fin.natAdd K k) * wq (Fin.natAdd K k) = nr k * wnq k := fun k => by
    rw [← hcr k, ← hwr k]; rfl
  simp only [h1, h2]
  -- (a + b) + (s + n) = ((a + s) + b) + n
  rw [add_add_add_comm, ← add_assoc]

/-- Row `r` of two [A, K] matrices laid side by side, as a function of the column: the first matrix's row on the first
    K columns, the second's on the next K. -/
def catRow {A K K2 : ℕ} (X NEI : (⟨2, ![A, K]⟩ : Shape).Idx → EReal) (r : Fin A) (k : Fin K2) : EReal :=
  if h : k.val < K then X (ix2 r ⟨k.val, h⟩) else if h2 : k.val - K < K then NEI (ix2 r ⟨k.val - K, h2⟩) else 0

theorem catRow_left {A K K2 : ℕ} (X NEI : (⟨2, ![A, K]⟩ : Shape).Idx → EReal) (r : Fin A) (k : Fin K) (hk : k.val < K2) :
    catRow X NEI r (⟨k.val, hk⟩ : Fin K2) = X (ix2 r k) := by
  unfold catRow; rw [dif_pos k.isLt]

theorem catRow_right {A K K2 : ℕ} (X NEI : (⟨2, ![A, K]⟩ : Shape).Idx → EReal) (r : Fin A) (k : Fin K) (hk : K + k.val < K2) :
    catRow X NEI r (⟨K + k.val, hk⟩ : Fin K2) = NEI (ix2 r k) := by
  unfold catRow
  have h1 : ¬ (K + k.val < K) := by omega
  have h2 : K + k.val - K < K := by have := k.isLt; omega
  rw [dif_neg h1, dif_pos h2]
  exact congrArg (fun z => NEI (ix2 r z)) (Fin.ext (by show K + k.val - K = k.val; omega))

/-- Entry (p, q) of the layer in its concatenated spelling: the side-by-side row p against column q of a [K2, M]
    matrix, plus entry q of a bias vector, and the maximum of that with zero. -/
def denseEntry {A K K2 M : ℕ} (X NEI : (⟨2, ![A, K]⟩ : Shape).Idx → EReal) (W : (⟨2, ![K2, M]⟩ : Shape).Idx → EReal)
    (B : (⟨1, ![M]⟩ : Shape).Idx → EReal) (p : Fin A) (q : Fin M) : EReal :=
  max ((∑ k : Fin K2, catRow X NEI p k * W (ix2 k q)) + B (ix1 q)) 0

/-- The layer in its concatenated spelling, as one function of whole arrays. -/
def dense {A K K2 M : ℕ} (X NEI : (⟨2, ![A, K]⟩ : Shape).Idx → EReal) (W : (⟨2, ![K2, M]⟩ : Shape).Idx → EReal)
    (B : (⟨1, ![M]⟩ : Shape).Idx → EReal) : (⟨2, ![A, M]⟩ : Shape).Idx → EReal :=
  fun i => denseEntry X NEI W B (i 0) (i 1)

/-- An entry depends only on row p of the two feature matrices, column q of the weights and entry q of the bias: two
    settings that agree on those (possibly at different row and column numbers, as a block and the array it is cut
    from do) have the same entry. -/
theorem denseEntry_congr {A A' K K2 M M' : ℕ}
    (X NEI : (⟨2, ![A, K]⟩ : Shape).Idx → EReal) (W : (⟨2, ![K2, M]⟩ : Shape).Idx → EReal) (B : (⟨1, ![M]⟩ : Shape).Idx → EReal)
    (X' NEI' : (⟨2, ![A', K]⟩ : Shape).Idx → EReal) (W' : (⟨2, ![K2, M']⟩ : Shape).Idx → EReal) (B' : (⟨1, ![M']⟩ : Shape).Idx → EReal)
    (p : Fin A) (q : Fin M) (p' : Fin A') (q' : Fin M')
    (hX : ∀ k : Fin K, X (ix2 p k) = X' (ix2 p' k)) (hN : ∀ k : Fin K, NEI (ix2 p k) = NEI' (ix2 p' k))
    (hW : ∀ k : Fin K2, W (ix2 k q) = W' (ix2 k q')) (hB : B (ix1 q) = B' (ix1 q')) :
    denseEntry X NEI W B p q = denseEntry X' NEI' W' B' p' q' := by
  unfold denseEntry
  rw [hB]
  refine congrArg (fun s => max (s + B' (ix1 q')) 0) (Finset.sum_congr rfl fun k _ => ?_)
  rw [hW k]
  refine congrArg (· * W' (ix2 k q')) ?_
  unfold catRow
  split
  · exact hX _
  · split
    · exact hN _
    · rfl

variable {α : Type}

/-- Two [A, K] matrices side by side: a column below K reads the first. -/
theorem cat_cols_left {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : k.val < K2) :
    concatenate ⟨2, ![A, K2]⟩ (1 : Fin 2) [⟨⟨2, ![A, K]⟩, x₁⟩, ⟨⟨2, ![A, K]⟩, x₂⟩] h (ix2 p ⟨k.val, hk⟩) = x₁ (ix2 p k) :=
  concatenate_pair_apply_left (t := ⟨2, ![A, K2]⟩) (1 : Fin 2) x₁ x₂ h (ix2 p ⟨k.val, hk⟩) rfl (ix2 p k) fun b => by
    match b with
    | ⟨0, _⟩ => rfl
    | ⟨1, _⟩ => rfl

/-- Two [A, K] matrices side by side: column K + k reads the second at column k. -/
theorem cat_cols_right {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : K + k.val < K2) :
    concatenate ⟨2, ![A, K2]⟩ (1 : Fin 2) [⟨⟨2, ![A, K]⟩, x₁⟩, ⟨⟨2, ![A, K]⟩, x₂⟩] h (ix2 p ⟨K + k.val, hk⟩) = x₂ (ix2 p k) :=
  concatenate_pair_apply_right (t := ⟨2, ![A, K2]⟩) (1 : Fin 2) x₁ x₂ h (ix2 p ⟨K + k.val, hk⟩) rfl rfl (ix2 p k)
    (fun b hb => by
      match b with
      | ⟨0, _⟩ => rfl
      | ⟨1, _⟩ => exact absurd rfl hb)
    (by show k.val + K = K + k.val; omega)

/-- Two [K, M] matrices one above the other: a row below K reads the first. -/
theorem cat_rows_left {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : k.val < K2) :
    concatenate ⟨2, ![K2, M]⟩ (0 : Fin 2) [⟨⟨2, ![K, M]⟩, x₁⟩, ⟨⟨2, ![K, M]⟩, x₂⟩] h (ix2 ⟨k.val, hk⟩ q) = x₁ (ix2 k q) :=
  concatenate_pair_apply_left (t := ⟨2, ![K2, M]⟩) (0 : Fin 2) x₁ x₂ h (ix2 ⟨k.val, hk⟩ q) rfl (ix2 k q) fun b => by
    match b with
    | ⟨0, _⟩ => rfl
    | ⟨1, _⟩ => rfl

/-- Two [K, M] matrices one above the other: row K + k reads the second at row k. -/
theorem cat_rows_right {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : K + k.val < K2) :
    concatenate ⟨2, ![K2, M]⟩ (0 : Fin 2) [⟨⟨2, ![K, M]⟩, x₁⟩, ⟨⟨2, ![K, M]⟩, x₂⟩] h (ix2 ⟨K + k.val, hk⟩ q) = x₂ (ix2 k q) :=
  concatenate_pair_apply_right (t := ⟨2, ![K2, M]⟩) (0 : Fin 2) x₁ x₂ h (ix2 ⟨K + k.val, hk⟩ q) rfl rfl (ix2 k q)
    (fun b hb => by
      match b with
      | ⟨0, _⟩ => exact absurd rfl hb
      | ⟨1, _⟩ => rfl)
    (by show k.val + K = K + k.val; omega)

/-- A concatenation of two [A, K] matrices along the columns, read at (p, k), is the side-by-side row. -/
theorem cat_cols_eq_catRow {A K K2 : ℕ} (hK : K2 = K + K) (x₁ x₂ : (⟨2, ![A, K]⟩ : Shape).Idx → EReal)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k) = catRow x₁ x₂ p k := by
  by_cases hk : k.val < K
  · have e : k = ⟨(⟨k.val, hk⟩ : Fin K).val, k.isLt⟩ := rfl
    rw [e, cat_cols_left x₁ x₂ h p ⟨k.val, hk⟩ k.isLt, catRow_left x₁ x₂ p ⟨k.val, hk⟩ k.isLt]
  · have hk2 : k.val - K < K := by have := k.isLt; omega
    have hlt : K + (⟨k.val - K, hk2⟩ : Fin K).val < K2 := by show K + (k.val - K) < K2; have := k.isLt; omega
    have e : k = ⟨K + (⟨k.val - K, hk2⟩ : Fin K).val, hlt⟩ := Fin.ext (by show k.val = K + (k.val - K); omega)
    rw [e, cat_cols_right x₁ x₂ h p ⟨k.val - K, hk2⟩ hlt, catRow_right x₁ x₂ p ⟨k.val - K, hk2⟩ hlt]

/-- A host matrix product read at (p, q): the sum over the contracted axis of the left operand's row p times the
    right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.SageLayer

end
-- ==== Proof.LibCatCols.lean ====
/-
  Matrices joined along their columns, read at an entry, and sums over the joined axis.

  Two or three [A, K] matrices side by side form an [A, 2K] or [A, 3K] matrix whose entry (p, k) is the first
  matrix's (p, k) for k < K, the second's (p, k - K) for K ≤ k < 2K, the third's (p, k - 2K) beyond. A sum over the
  joined axis is therefore the sum of the pieces' sums.
-/
import Idealize.ShloMosaic.Lib.ValueIdx
import Idealize.ShloMosaic.Lib.Pipeline.Value
import proofs.«175448_j56392920597063_2_alg».proof.Proof.LibSageLayer

noncomputable section

namespace Cert.CatCols

open Idealize.ShloMosaic Idealize.ShloMosaic.ValueIdx

variable {α : Type}

/-- Two matrices side by side, at column k: the first below K, the second at k - K from K on. -/
theorem cat2_apply {A K K2 : ℕ} (hK : K2 = K + K) (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k)
      = if hk : k.val < K then x₁ (ix2 p ⟨k.val, hk⟩) else x₂ (ix2 p ⟨k.val - K, by omega⟩) := by
  by_cases hk : k.val < K
  · rw [dif_pos hk]
    exact Cert.SageLayer.cat_cols_left x₁ x₂ h p ⟨k.val, hk⟩ k.isLt
  · rw [dif_neg hk]
    have hlt : K + (k.val - K) < K2 := by omega
    have e : (⟨K + (k.val - K), hlt⟩ : Fin K2) = k := Fin.ext (by show K + (k.val - K) = k.val; omega)
    have := Cert.SageLayer.cat_cols_right x₁ x₂ h p ⟨k.val - K, by omega⟩ hlt
    rw [e] at this
    exact this

/-- Three matrices side by side, at column k. -/
theorem cat3_apply {A K K3 : ℕ} (hK : K3 = K + K + K) (x₁ x₂ x₃ : (⟨2, ![A, K]⟩ : Shape).Idx → α)
    (h : Shape.Concatenates [(⟨2, ![A, K]⟩ : Shape), ⟨2, ![A, K]⟩, ⟨2, ![A, K]⟩] ⟨2, ![A, K3]⟩ (1 : Fin 2)) (p : Fin A) (k : Fin K3) :
    concatenate ⟨2, ![A, K3]⟩ (1 : Fin 2) [⟨⟨2, ![A, K]⟩, x₁⟩, ⟨⟨2, ![A, K]⟩, x₂⟩, ⟨⟨2, ![A, K]⟩, x₃⟩] h (ix2 p k)
      = if hk : k.val < K then x₁ (ix2 p ⟨k.val, hk⟩)
        else if hk2 : k.val < K + K then x₂ (ix2 p ⟨k.val - K, by omega⟩)
        else x₃ (ix2 p ⟨k.val - (K + K), by omega⟩) := by
  by_cases hk : k.val < K
  · rw [dif_pos hk]
    refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 0 (by simp) ⟨2, ![A, K]⟩ x₁ rfl rfl 0 rfl
      (ix2 p ⟨k.val, hk⟩) (fun b hb => ?_) ?_
    · match b with
      | ⟨0, _⟩ => rfl
      | ⟨1, _⟩ => exact absurd rfl hb
    · show 0 + k.val = k.val; omega
  · rw [dif_neg hk]
    by_cases hk2 : k.val < K + K
    · rw [dif_pos hk2]
      refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 1 (by simp) ⟨2, ![A, K]⟩ x₂ rfl rfl K ?_
        (ix2 p ⟨k.val - K, by omega⟩) (fun b hb => ?_) ?_
      · simp
      · match b with
        | ⟨0, _⟩ => rfl
        | ⟨1, _⟩ => exact absurd rfl hb
      · show K + (k.val - K) = k.val; omega
    · rw [dif_neg hk2]
      refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 2 (by simp) ⟨2, ![A, K]⟩ x₃ rfl rfl (K + K) ?_
        (ix2 p ⟨k.val - (K + K), by omega⟩) (fun b hb => ?_) ?_
      · simp
      · match b with
        | ⟨0, _⟩ => rfl
        | ⟨1, _⟩ => exact absurd rfl hb
      · show K + K + (k.val - (K + K)) = k.val; omega

/-- A sum over a doubled axis is the sum over its two halves. -/
theorem sum_two {M : Type} [AddCommMonoid M] {K K2 : ℕ} (hK : K2 = K + K) (f : Fin K2 → M) :
    ∑ k : Fin K2, f k = (∑ k : Fin K, f ⟨k.val, by omega⟩) + (∑ k : Fin K, f ⟨K + k.val, by omega⟩) := by
  subst hK
  exact Fin.sum_univ_add f

/-- A sum over a tripled axis is the sum over its three thirds. -/
theorem sum_three {M : Type} [AddCommMonoid M] {K K3 : ℕ} (hK : K3 = K + K + K) (f : Fin K3 → M) :
    ∑ k : Fin K3, f k
      = ((∑ k : Fin K, f ⟨k.val, by omega⟩) + (∑ k : Fin K, f ⟨K + k.val, by omega⟩)) + (∑ k : Fin K, f ⟨K + K + k.val, by omega⟩) := by
  subst hK
  rw [Fin.sum_univ_add f, Fin.sum_univ_add (fun i : Fin (K + K) => f (Fin.castAdd K i))]
  rfl

end Cert.CatCols

end
-- ==== Proof.KDense.lean ====
/-
  The three building blocks of one depth of the body, read at an entry, for any depth o = 0..3:
  two [4096, 128] blocks joined along the columns; the dense layer on a joined [4096, 256] operand (a matrix product
  with slice o of the weights, plus slice o of the biases along the rows, rectified); the estimator (a lane sum of the
  activations times slice o of the estimator weights, plus entry o of the estimator biases).
-/
import proofs.«175448_j56392920597063_2_alg».proof.Proof.KernelCommon
import proofs.«175448_j56392920597063_2_alg».proof.Proof.LibDenseLayer
import proofs.«175448_j56392920597063_2_alg».proof.Proof.LibCatCols
import proofs.«175448_j56392920597063_2_alg».proof.Proof.LibRowReduce
import proofs.«175448_j56392920597063_2_alg».proof.Proof.LibTileMask

set_option synthInstance.maxSize 4096

noncomputable section

namespace Cert.KernelIdeal.Body

open Idealize.ShloMosaic Idealize.ShloMosaic.ValueIdx Cert.KernelIdeal Cert.KernelIdeal.Gen

/-- Two blocks side by side, at (p, k): the rows side by side. -/
theorem cat_apply (a b : FVec Ideal S4096x128 .f32) (p : Fin 4096) (k : Fin 256) :
    concatenate S4096x256 1 [⟨S4096x128, a⟩, ⟨S4096x128, b⟩] concatenates_S4096x128_S4096x128_S4096x256_d1 (ix2 p k)
      = Cert.Moe.cat (row a p) (row b p) k := by
  refine (Cert.CatCols.cat2_apply (A := 4096) (K := 128) (K2 := 256) rfl a b concatenates_S4096x128_S4096x128_S4096x256_d1 p k).trans ?_
  unfold Cert.Moe.cat
  rfl

/-- Slice o of the weights, with its unit axis dropped, at (k, j). -/
private theorem weight_apply (o : ℕ) (ho : o < 4) (v3 : FVec Ideal S4x256x128 .bf16)
    (hs3 : S4x256x128.Slices ![o, 0, 0] S1x256x128) (k : Fin 256) (j : Fin 128) :
    shapeCast S256x128 (extractStridedSlice S1x256x128 ![o, 0, 0] v3 hs3) shapeCasts_S1x256x128_S256x128 (ix2 k j)
      = v3 (ix3 (⟨o, ho⟩ : Fin 4) k j) := by
  refine (shapeCast_apply _ shapeCasts_S1x256x128_S256x128 (ix2 k j) (ix3 (0 : Fin 1) k j) ?_).trans ?_
  · rw [Shape.rowMajor_val_three, Shape.rowMajor_val_two]
    show (0 * 256 + k.val) * 128 + j.val = k.val * 128 + j.val
    omega
  · refine extractStridedSlice_apply ![o, 0, 0] v3 hs3 (ix3 (0 : Fin 1) k j) (ix3 (⟨o, ho⟩ : Fin 4) k j) fun a => ?_
    match a with
    | ⟨0, _⟩ => rfl
    | ⟨1, _⟩ => exact (Nat.zero_add _).symm
    | ⟨2, _⟩ => exact (Nat.zero_add _).symm

/-- Slice o of the biases, spread down the rows, at (p, j). -/
private theorem bias_apply (o : ℕ) (ho : o < 4) (v4 : FVec Ideal S4x128 .f32) (hs4 : S4x128.Slices ![o, 0] S1x128)
    (p : Fin 4096) (j : Fin 128) :
    broadcastTo S4096x128 (shapeCast S1x128 (shapeCast S128 (extractStridedSlice S1x128 ![o, 0] v4 hs4) shapeCasts_S1x128_S128)
          shapeCasts_S128_S1x128) broadcasts_S1x128_S4096x128 (ix2 p j)
      = v4 (ix2 (⟨o, ho⟩ : Fin 4) j) := by
  refine (Cert.TileMask.row_bcast_apply _ shapeCasts_S128_S1x128 broadcasts_S1x128_S4096x128 p j).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · refine extractStridedSlice_apply ![o, 0] v4 hs4 (ix2 (0 : Fin 1) j) (ix2 (⟨o, ho⟩ : Fin 4) j) fun a => ?_
    match a with
    | ⟨0, _⟩ => rfl
    | ⟨1, _⟩ => exact (Nat.zero_add _).symm

/-- The four index facts of the product's dimension record: the left index takes the output row and the contraction
    position, the right index the contraction position and the output column. -/
private theorem dot_l0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
private theorem dot_l1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
private theorem dot_r0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
private theorem dot_r1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The dense layer of depth o on a joined operand, at (p, j). -/
theorem dense_apply (o : ℕ) (ho : o < 4) (cc : FVec Ideal S4096x256 .f32) (v3 : FVec Ideal S4x256x128 .bf16) (v4 : FVec Ideal S4x128 .f32)
    (hs3 : S4x256x128.Slices ![o, 0, 0] S1x256x128) (hs4 : S4x128.Slices ![o, 0] S1x128) (p : Fin 4096) (j : Fin 128) :
    maximumf (addf (matmul dot_S4096x256_S256x128_S4096x128_1_0_0_1_n_n none (truncf .bf16 cc bitsLt_bf16_f32)
          (shapeCast S256x128 (extractStridedSlice S1x256x128 ![o, 0, 0] v3 hs3) shapeCasts_S1x256x128_S256x128)
          (constant (F := Ideal) S4096x128 .f32 0x00000000#32))
        (broadcastTo S4096x128 (shapeCast S1x128 (shapeCast S128 (extractStridedSlice S1x128 ![o, 0] v4 hs4) shapeCasts_S1x128_S128)
          shapeCasts_S128_S1x128) broadcasts_S1x128_S4096x128))
      (broadcast S4096x128 (Scalar.ofBits (F := Ideal) .f32 0x00000000#32)) (ix2 p j)
      = max ((∑ k : Fin 256, cc (ix2 p k) * v3 (ix3 (⟨o, ho⟩ : Fin 4) k j)) + v4 (ix2 (⟨o, ho⟩ : Fin 4) j)) 0 := by
  rw [maximumf_apply, addf_apply, broadcast_apply, bias_apply o ho v4 hs4 p j]
  have hz : (Scalar.ofBits (F := Ideal) .f32 0x00000000#32 : EReal) = 0 := Ideal.ofBits_zero_f32
  rw [hz]
  refine congrArg (fun t => max (t + v4 (ix2 (⟨o, ho⟩ : Fin 4) j)) 0) ?_
  refine (Cert.DenseLayer.matmul_rows_cols dot_S4096x256_S256x128_S4096x128_1_0_0_1_n_n rfl rfl dot_l0 dot_l1 dot_r0 dot_r1 none
    (truncf .bf16 cc bitsLt_bf16_f32) _ p j).trans ?_
  refine Finset.sum_congr rfl fun k _ => ?_
  rw [truncf_apply, weight_apply o ho v3 hs3 k j]

/-- Slice o of the estimator weights, as a row spread down the rows, at (p, c). -/
private theorem eweight_apply (o : ℕ) (ho : o < 4) (v5 : FVec Ideal S4x128x1 .f32) (hs5 : S4x128x1.Slices ![o, 0, 0] S1x128x1)
    (p : Fin 4096) (c : Fin 128) :
    broadcastTo S4096x128 (shapeCast S1x128 (shapeCast S128
          (extractStridedSlice S1x128x1 ![o, 0, 0] v5 hs5) shapeCasts_S1x128x1_S128) shapeCasts_S128_S1x128) broadcasts_S1x128_S4096x128 (ix2 p c)
      = v5 (ix3 (⟨o, ho⟩ : Fin 4) c (0 : Fin 1)) := by
  refine (Cert.TileMask.row_bcast_apply _ shapeCasts_S128_S1x128 broadcasts_S1x128_S4096x128 p c).trans ?_
  refine (shapeCast_apply _ shapeCasts_S1x128x1_S128 (ix1 c) (ix3 (0 : Fin 1) c (0 : Fin 1)) ?_).trans ?_
  · rw [Shape.rowMajor_val_three, Shape.rowMajor_val_one]
    show (0 * 128 + c.val) * 1 + 0 = c.val
    omega
  · refine extractStridedSlice_apply ![o, 0, 0] v5 hs5 (ix3 (0 : Fin 1) c (0 : Fin 1)) (ix3 (⟨o, ho⟩ : Fin 4) c (0 : Fin 1)) fun a => ?_
    match a with
    | ⟨0, _⟩ => rfl
    | ⟨1, _⟩ => exact (Nat.zero_add _).symm
    | ⟨2, _⟩ => rfl

/-- Entry o of the estimator biases. -/
private theorem ebias_apply (o : ℕ) (ho : o < 4) (v6 : FVec Ideal S4x1 .f32) (hs6 : S4x1.Slices ![o, 0] S1x1) :
    extractAt ![0, 0] (extractStridedSlice S1x1 ![o, 0] v6 hs6) inpos_S1x1_p0_0 = v6 (ix2 (⟨o, ho⟩ : Fin 4) (0 : Fin 1)) := by
  unfold extractAt
  refine extractStridedSlice_apply ![o, 0] v6 hs6 _ (ix2 (⟨o, ho⟩ : Fin 4) (0 : Fin 1)) fun a => ?_
  match a with
  | ⟨0, _⟩ => rfl
  | ⟨1, _⟩ => rfl

/-- The estimator of depth o on a block of activations, at row p. -/
theorem pred_apply (o : ℕ) (ho : o < 4) (cur : FVec Ideal S4096x128 .f32) (v5 : FVec Ideal S4x128x1 .f32) (v6 : FVec Ideal S4x1 .f32)
    (hs5 : S4x128x1.Slices ![o, 0, 0] S1x128x1) (hs6 : S4x1.Slices ![o, 0] S1x1) (p : Fin 4096) :
    addf (shapeCast S4096x1 (multiReduction .add [1] S4096 (mulf cur (broadcastTo S4096x128 (shapeCast S1x128 (shapeCast S128
          (extractStridedSlice S1x128x1 ![o, 0, 0] v5 hs5) shapeCasts_S1x128x1_S128) shapeCasts_S128_S1x128) broadcasts_S1x128_S4096x128))
          0x00000000#32 reduces_S4096x128_S4096 (.inl rfl) rfl) shapeCasts_S4096_S4096x1)
        (broadcast S4096x1 (extractAt ![0, 0] (extractStridedSlice S1x1 ![o, 0] v6 hs6) inpos_S1x1_p0_0)) (ix2 p (0 : Fin 1))
      = (∑ k : Fin 128, cur (ix2 p k) * v5 (ix3 (⟨o, ho⟩ : Fin 4) k (0 : Fin 1))) + v6 (ix2 (⟨o, ho⟩ : Fin 4) (0 : Fin 1)) := by
  rw [addf_apply, broadcast_apply, ebias_apply o ho v6 hs6]
  refine congrArg (fun t => t + v6 (ix2 (⟨o, ho⟩ : Fin 4) (0 : Fin 1))) ?_
  refine (Cert.Keepdims.shapeCast_a_a1_apply _ shapeCasts_S4096_S4096x1 p (0 : Fin 1)).trans ?_
  refine (Cert.RowReduce.rowSum_apply _ 0x00000000#32 reduces_S4096x128_S4096 (.inl rfl) rfl p).trans ?_
  refine Finset.sum_congr rfl fun k _ => ?_
  rw [mulf_apply, eweight_apply o ho v5 hs5 p k]

end Cert.KernelIdeal.Body

end
-- ==== Proof.KLayers.lean ====
/-
  The activations and estimates of the body at depths 0 and 1, and the joined operand of depth 2, read at a row.
-/
import proofs.«175448_j56392920597063_2_alg».proof.Proof.KDense

set_option synthInstance.maxSize 4096

noncomputable section

namespace Cert.KernelIdeal.Body

open Idealize.ShloMosaic Idealize.ShloMosaic.ValueIdx Cert.KernelIdeal Cert.KernelIdeal.Gen
variable (x0 : FVec Ideal S4096x128 .f32) (x1 : FVec Ideal S128x4 .f32) (v3 : FVec Ideal S4x256x128 .bf16)
  (x3 : FVec Ideal S4x128 .f32) (x4 : FVec Ideal S4x128x1 .f32) (x5 : FVec Ideal S4x1 .f32)

theorem pay8_apply (p : Fin 4096) (j : Fin 128) :
    k0_pay8 x0 v3 x3 (ix2 p j) = Cert.Moe.cur0 (par x1 v3 x3 x4 x5) (row x0 p) j := by
  unfold k0_pay8
  refine (dense_apply 0 (by decide) _ v3 x3 _ _ p j).trans ?_
  unfold Cert.Moe.cur0 Cert.Moe.layer
  refine congrArg (fun s => max (s + x3 (ix2 (⟨0, by decide⟩ : Fin 4) j)) 0) ?_
  exact Finset.sum_congr rfl fun k _ => by rw [cat_apply]; rfl

theorem pay10_apply (p : Fin 4096) (j : Fin 128) :
    k0_pay10 x0 v3 x3 (ix2 p j) = Cert.Moe.cur1 (par x1 v3 x3 x4 x5) (row x0 p) j := by
  unfold k0_pay10
  refine (dense_apply 1 (by decide) _ v3 x3 _ _ p j).trans ?_
  unfold Cert.Moe.cur1 Cert.Moe.layer
  refine congrArg (fun s => max (s + x3 (ix2 (⟨1, by decide⟩ : Fin 4) j)) 0) ?_
  have h : row (k0_pay8 x0 v3 x3) p = Cert.Moe.cur0 (par x1 v3 x3 x4 x5) (row x0 p) :=
    funext fun j' => pay8_apply x0 x1 v3 x3 x4 x5 p j'
  exact Finset.sum_congr rfl fun k _ => by rw [cat_apply, h]; rfl

theorem pay9_apply (p : Fin 4096) :
    k0_pay9 x0 v3 x3 x4 x5 (ix2 p (0 : Fin 1)) = Cert.Moe.pred (par x1 v3 x3 x4 x5) 0 (Cert.Moe.cur0 (par x1 v3 x3 x4 x5) (row x0 p)) := by
  unfold k0_pay9
  refine (pred_apply 0 (by decide) (k0_pay8 x0 v3 x3) x4 x5 _ _ p).trans ?_
  unfold Cert.Moe.pred
  refine congrArg (fun s => s + x5 (ix2 (⟨0, by decide⟩ : Fin 4) (0 : Fin 1))) ?_
  exact Finset.sum_congr rfl fun k _ => by rw [pay8_apply x0 x1 v3 x3 x4 x5 p k]; rfl

theorem pay11_apply (p : Fin 4096) :
    k0_pay11 x0 v3 x3 x4 x5 (ix2 p (0 : Fin 1)) = Cert.Moe.pred (par x1 v3 x3 x4 x5) 1 (Cert.Moe.cur1 (par x1 v3 x3 x4 x5) (row x0 p)) := by
  unfold k0_pay11
  refine (pred_apply 1 (by decide) (k0_pay10 x0 v3 x3) x4 x5 _ _ p).trans ?_
  unfold Cert.Moe.pred
  refine congrArg (fun s => s + x5 (ix2 (⟨1, by decide⟩ : Fin 4) (0 : Fin 1))) ?_
  exact Finset.sum_congr rfl fun k _ => by rw [pay10_apply x0 x1 v3 x3 x4 x5 p k]; rfl

theorem pay12_apply (p : Fin 4096) (k : Fin 256) :
    k0_pay12 x0 v3 x3 (ix2 p k) = Cert.Moe.cat (Cert.Moe.cur1 (par x1 v3 x3 x4 x5) (row x0 p)) (row x0 p) k := by
  unfold k0_pay12
  refine (cat_apply (k0_pay10 x0 v3 x3) x0 p k).trans ?_
  have h : row (k0_pay10 x0 v3 x3) p = Cert.Moe.cur1 (par x1 v3 x3 x4 x5) (row x0 p) :=
    funext fun j' => pay10_apply x0 x1 v3 x3 x4 x5 p j'
  exact congrArg (fun r => Cert.Moe.cat r (row x0 p) k) h

end Cert.KernelIdeal.Body

end
-- ==== Proof.KDeep.lean ====
/-
  The [4096, 4] array of the four estimates, read at (p, l): given the estimates of depths 0 and 1 and the joined
  operand of depth 2, the body computes depths 2 and 3 and joins the four columns.
-/
import proofs.«175448_j56392920597063_2_alg».proof.Proof.KDense

set_option synthInstance.maxSize 4096

noncomputable section

namespace Cert.KernelIdeal.Body

open Idealize.ShloMosaic Idealize.ShloMosaic.ValueIdx Cert.KernelIdeal Cert.KernelIdeal.Gen
variable (x0 : FVec Ideal S4096x128 .f32) (x1 : FVec Ideal S128x4 .f32) (v3 : FVec Ideal S4x256x128 .bf16)
  (x3 : FVec Ideal S4x128 .f32) (x4 : FVec Ideal S4x128x1 .f32) (x5 : FVec Ideal S4x1 .f32)

/-- Four [4096, 1] columns joined along axis 1, at (p, l): column l at (p, 0). -/
private theorem four_cols_apply (c0 c1 c2 c3 : FVec Ideal S4096x1 .f32) (p : Fin 4096) (l : Fin 4) :
    concatenate S4096x4 1 [⟨S4096x1, c0⟩, ⟨S4096x1, c1⟩, ⟨S4096x1, c2⟩, ⟨S4096x1, c3⟩]
        concatenates_S4096x1_S4096x1_S4096x1_S4096x1_S4096x4_d1 (ix2 p l)
      = (![c0, c1, c2, c3] l) (ix2 p (0 : Fin 1)) := by
  match l with
  | ⟨0, hl⟩ =>
    refine concatenate_apply_piece (t := S4096x4) (1 : Fin 2) _ _ (ix2 p ⟨0, hl⟩) 0 (by simp) S4096x1 c0 rfl rfl 0 rfl
      (ix2 p (0 : Fin 1)) (fun b hb => ?_) rfl
    match b with
    | ⟨0, _⟩ => rfl
    | ⟨1, _⟩ => exact absurd rfl hb
  | ⟨1, hl⟩ =>
    refine concatenate_apply_piece (t := S4096x4) (1 : Fin 2) _ _ (ix2 p ⟨1, hl⟩) 1 (by simp) S4096x1 c1 rfl rfl 1 rfl
      (ix2 p (0 : Fin 1)) (fun b hb => ?_) rfl
    match b with
    | ⟨0, _⟩ => rfl
    | ⟨1, _⟩ => exact absurd rfl hb
  | ⟨2, hl⟩ =>
    refine concatenate_apply_piece (t := S4096x4) (1 : Fin 2) _ _ (ix2 p ⟨2, hl⟩) 2 (by simp) S4096x1 c2 rfl rfl 2 rfl
      (ix2 p (0 : Fin 1)) (fun b hb => ?_) rfl
    match b with
    | ⟨0, _⟩ => rfl
    | ⟨1, _⟩ => exact absurd rfl hb
  | ⟨3, hl⟩ =>
    refine concatenate_apply_piece (t := S4096x4) (1 : Fin 2) _ _ (ix2 p ⟨3, hl⟩) 3 (by simp) S4096x1 c3 rfl rfl 3 rfl
      (ix2 p (0 : Fin 1)) (fun b hb => ?_) rfl
    match b with
    | ⟨0, _⟩ => rfl
    | ⟨1, _⟩ => exact absurd rfl hb

/-- The dense layer of depth o on a joined operand, as a block. -/
private def act (o : ℕ) (cc : FVec Ideal S4096x256 .f32) (v3 : FVec Ideal S4x256x128 .bf16) (v4 : FVec Ideal S4x128 .f32)
    (hs3 : S4x256x128.Slices ![o, 0, 0] S1x256x128) (hs4 : S4x128.Slices ![o, 0] S1x128) : FVec Ideal S4096x128 .f32 :=
  maximumf (addf (matmul dot_S4096x256_S256x128_S4096x128_1_0_0_1_n_n none (truncf .bf16 cc bitsLt_bf16_f32)
        (shapeCast S256x128 (extractStridedSlice S1x256x128 ![o, 0, 0] v3 hs3) shapeCasts_S1x256x128_S256x128)
        (constant (F := Ideal) S4096x128 .f32 0x00000000#32))
      (broadcastTo S4096x128 (shapeCast S1x128 (shapeCast S128 (extractStridedSlice S1x128 ![o, 0] v4 hs4) shapeCasts_S1x128_S128)
        shapeCasts_S128_S1x128) broadcasts_S1x128_S4096x128))
    (broadcast S4096x128 (Scalar.ofBits (F := Ideal) .f32 0x00000000#32))

/-- The estimator of depth o on a block of activations, as a column. -/
private def est (o : ℕ) (cur : FVec Ideal S4096x128 .f32) (v5 : FVec Ideal S4x128x1 .f32) (v6 : FVec Ideal S4x1 .f32)
    (hs5 : S4x128x1.Slices ![o, 0, 0] S1x128x1) (hs6 : S4x1.Slices ![o, 0] S1x1) : FVec Ideal S4096x1 .f32 :=
  addf (shapeCast S4096x1 (multiReduction .add [1] S4096 (mulf cur (broadcastTo S4096x128 (shapeCast S1x128 (shapeCast S128
        (extractStridedSlice S1x128x1 ![o, 0, 0] v5 hs5) shapeCasts_S1x128x1_S128) shapeCasts_S128_S1x128) broadcasts_S1x128_S4096x128))
        0x00000000#32 reduces_S4096x128_S4096 (.inl rfl) rfl) shapeCasts_S4096_S4096x1)
      (broadcast S4096x1 (extractAt ![0, 0] (extractStridedSlice S1x1 ![o, 0] v6 hs6) inpos_S1x1_p0_0))

/-- The activations of depth 2, from the joined operand of depth 2. -/
private abbrev act2 (v3 : FVec Ideal S4x256x128 .bf16) (x3 : FVec Ideal S4x128 .f32) (v90 : FVec Ideal S4096x256 .f32) :
    FVec Ideal S4096x128 .f32 :=
  act 2 v90 v3 x3 slices_S4x256x128_o2_0_0_S1x256x128 slices_S4x128_o2_0_S1x128

/-- The activations of depth 3: the layer on depth 2's activations beside the input block. -/
private abbrev act3 (x0 : FVec Ideal S4096x128 .f32) (v3 : FVec Ideal S4x256x128 .bf16) (x3 : FVec Ideal S4x128 .f32)
    (v90 : FVec Ideal S4096x256 .f32) : FVec Ideal S4096x128 .f32 :=
  act 3 (concatenate S4096x256 1 [⟨S4096x128, act2 v3 x3 v90⟩, ⟨S4096x128, x0⟩] concatenates_S4096x128_S4096x128_S4096x256_d1)
    v3 x3 slices_S4x256x128_o3_0_0_S1x256x128 slices_S4x128_o3_0_S1x128

/-- The body's array of estimates is the four columns: the two given ones, then depth 2's and depth 3's. -/
private theorem pay13_eq (v66 v89 : FVec Ideal S4096x1 .f32) (v90 : FVec Ideal S4096x256 .f32) :
    k0_pay13 x0 v3 x3 x4 x5 v66 v89 v90 =
      concatenate S4096x4 1 [⟨S4096x1, v66⟩, ⟨S4096x1, v89⟩,
        ⟨S4096x1, est 2 (act2 v3 x3 v90) x4 x5 slices_S4x128x1_o2_0_0_S1x128x1 slices_S4x1_o2_0_S1x1⟩,
        ⟨S4096x1, est 3 (act3 x0 v3 x3 v90) x4 x5 slices_S4x128x1_o3_0_0_S1x128x1 slices_S4x1_o3_0_S1x1⟩]
        concatenates_S4096x1_S4096x1_S4096x1_S4096x1_S4096x4_d1 := rfl

theorem pay13_apply (v66 v89 : FVec Ideal S4096x1 .f32) (v90 : FVec Ideal S4096x256 .f32)
    (h66 : ∀ p, v66 (ix2 p (0 : Fin 1)) = Cert.Moe.pred (par x1 v3 x3 x4 x5) 0 (Cert.Moe.cur0 (par x1 v3 x3 x4 x5) (row x0 p)))
    (h89 : ∀ p, v89 (ix2 p (0 : Fin 1)) = Cert.Moe.pred (par x1 v3 x3 x4 x5) 1 (Cert.Moe.cur1 (par x1 v3 x3 x4 x5) (row x0 p)))
    (h90 : ∀ p k, v90 (ix2 p k) = Cert.Moe.cat (Cert.Moe.cur1 (par x1 v3 x3 x4 x5) (row x0 p)) (row x0 p) k)
    (p : Fin 4096) (l : Fin 4) :
    k0_pay13 x0 v3 x3 x4 x5 v66 v89 v90 (ix2 p l) = Cert.Moe.preds (par x1 v3 x3 x4 x5) (row x0 p) l := by
  -- depth 2's activations: the layer on the joined operand, whose rows are (cur1 ‖ x) by hypothesis
  have hc2 : row (act2 v3 x3 v90) p = Cert.Moe.cur2 (par x1 v3 x3 x4 x5) (row x0 p) := funext fun j => by
    show act2 v3 x3 v90 (ix2 p j) = _
    refine (dense_apply 2 (by decide) v90 v3 x3 _ _ p j).trans ?_
    unfold Cert.Moe.cur2 Cert.Moe.layer
    refine congrArg (fun s => max (s + x3 (ix2 (⟨2, by decide⟩ : Fin 4) j)) 0) ?_
    exact Finset.sum_congr rfl fun k _ => by rw [h90 p k]; rfl
  -- depth 3's activations: the layer on (depth 2's activations ‖ x)
  have hc3 : row (act3 x0 v3 x3 v90) p = Cert.Moe.cur3 (par x1 v3 x3 x4 x5) (row x0 p) := funext fun j => by
    show act3 x0 v3 x3 v90 (ix2 p j) = _
    refine (dense_apply 3 (by decide) _ v3 x3 _ _ p j).trans ?_
    unfold Cert.Moe.cur3 Cert.Moe.layer
    refine congrArg (fun s => max (s + x3 (ix2 (⟨3, by decide⟩ : Fin 4) j)) 0) ?_
    exact Finset.sum_congr rfl fun k _ => by rw [cat_apply, hc2]; rfl
  rw [pay13_eq]
  refine (four_cols_apply _ _ _ _ p l).trans ?_
  match l with
  | ⟨0, _⟩ => exact h66 p
  | ⟨1, _⟩ => exact h89 p
  | ⟨2, _⟩ =>
    refine (pred_apply 2 (by decide) (act2 v3 x3 v90) x4 x5 _ _ p).trans ?_
    show _ = Cert.Moe.pred (par x1 v3 x3 x4 x5) 2 (Cert.Moe.cur2 (par x1 v3 x3 x4 x5) (row x0 p))
    rw [← hc2]
    rfl
  | ⟨3, _⟩ =>
    refine (pred_apply 3 (by decide) (act3 x0 v3 x3 v90) x4 x5 _ _ p).trans ?_
    show _ = Cert.Moe.pred (par x1 v3 x3 x4 x5) 3 (Cert.Moe.cur3 (par x1 v3 x3 x4 x5) (row x0 p))
    rw [← hc3]
    rfl

theorem pay14_apply (v66 v89 : FVec Ideal S4096x1 .f32) (v90 : FVec Ideal S4096x256 .f32) (p : Fin 4096) :
    k0_pay14 x0 v3 x3 x4 x5 v66 v89 v90 (ix2 p (0 : Fin 1)) = k0_pay13 x0 v3 x3 x4 x5 v66 v89 v90 (ix2 p (3 : Fin 4)) := by
  unfold k0_pay14
  refine extractStridedSlice_apply ![0, 3] _ slices_S4096x4_o0_3_S4096x1 (ix2 p (0 : Fin 1)) (ix2 p (3 : Fin 4)) (fun a => ?_)
  match a with
  | ⟨0, _⟩ => exact (Nat.zero_add p.val).symm
  | ⟨1, _⟩ => rfl

end Cert.KernelIdeal.Body

end
-- ==== Proof.KFold.lean ====
/-
  The routed combination of the body, read at entry (R, q) of the [32, 128] output block, which is row R·128 + q of the
  [4096, 1] column the body computes: from the gates, the estimates, the deepest estimate's column, the depth-2 exit
  indicator and the deepest gate's column.
-/
import proofs.«175448_j56392920597063_2_alg».proof.Proof.KernelCommon
import proofs.«175448_j56392920597063_2_alg».proof.Proof.LibRowReduce
import proofs.«175448_j56392920597063_2_alg».proof.Proof.LibKeepdims

set_option synthInstance.maxSize 4096

noncomputable section

namespace Cert.KernelIdeal.Body

open Idealize.ShloMosaic Idealize.ShloMosaic.ValueIdx Cert.KernelIdeal Cert.KernelIdeal.Gen

/-- A column tested for positivity against the zero splat, the one-bit answer widened to 32 bits and converted as a
    signed integer: the indicator of the column's entry. -/
private theorem ind_col (c : FVec Ideal S4096x1 .f32) (h : 1 < 32) (i : S4096x1.Idx) :
    (sitofp .f32 (extui 32 (cmpf .ogt c (broadcast S4096x1 (Scalar.ofBits .f32 0x00000000#32))) h) : FVec Ideal S4096x1 .f32) i
      = Cert.Moe.ind (c i) := by
  rw [sitofp_apply, extui_apply, cmpf_apply, broadcast_apply, Ideal.cmpf_def]
  show ((((Ideal.cmp .ogt _ (Ideal.ofBits .f32 0x00000000#32)).setWidth 32).toInt : ℝ) : EReal) = _
  rw [Ideal.ofBits_zero_f32, Cert.Moe.ind_of_signed]

/-- Column o of a [4096, 4] array, sliced out as a [4096, 1] column, at (p, u): the array's entry (p, o). -/
private theorem col_apply (v : FVec Ideal S4096x4 .f32) (o : Fin 4) (hs : S4096x4.Slices ![0, o.val] S4096x1)
    (p : Fin 4096) (u : Fin 1) : extractStridedSlice S4096x1 ![0, o.val] v hs (ix2 p u) = v (ix2 p o) := by
  refine extractStridedSlice_apply _ v hs (ix2 p u) (ix2 p o) fun a => ?_
  match a with
  | ⟨0, _⟩ => show p.val = 0 + p.val; omega
  | ⟨1, _⟩ => show o.val = o.val + u.val; omega

/-- The lane maximum from -∞ of a [4096, n] array, kept as a column: at (p, u) the maximum from -∞ of row p. -/
private theorem mask_apply {n : ℕ} (s : FVec Ideal ⟨2, ![4096, n]⟩ .f32) (h : (⟨2, ![4096, n]⟩ : Shape).Reduces [1] S4096)
    (p : Fin 4096) (u : Fin 1) :
    shapeCast S4096x1 (multiReduction .maximumf [1] S4096 s 0xFF800000#32 h (.inl rfl) rfl) shapeCasts_S4096_S4096x1 (ix2 p u)
      = Cert.Moe.anyMax n (fun c => s (ix2 p c)) := by
  rw [Cert.Keepdims.shapeCast_a_a1_apply]
  refine (Cert.RowReduce.rowMax_apply s _ h _ _ p).trans ?_
  rw [Cert.Moe.ofBits_neg_inf]
  rfl

/-- Row p of the last n columns of a [4096, 4] array whose row p is g: the entries of g from o on (n + o = 4). -/
private theorem tail_row (v : FVec Ideal S4096x4 .f32) (g : Fin 4 → EReal) (p : Fin 4096) (hg : ∀ l, v (ix2 p l) = g l)
    (n o : ℕ) (hno : n + o = 4) (hs : S4096x4.Slices ![0, o] ⟨2, ![4096, n]⟩) :
    (fun c : Fin n => extractStridedSlice ⟨2, ![4096, n]⟩ ![0, o] v hs (ix2 p c)) = fun c => g ⟨c.val + o, by omega⟩ := by
  funext c
  refine (extractStridedSlice_apply _ v hs (ix2 p c) (ix2 p (⟨c.val + o, by omega⟩ : Fin 4)) fun a => ?_).trans (hg _)
  match a with
  | ⟨0, _⟩ => show p.val = 0 + p.val; omega
  | ⟨1, _⟩ => show c.val + o = o + c.val; omega

theorem pay1_apply (v43 v136 : FVec Ideal S4096x4 .f32) (v137 v142 v143 : FVec Ideal S4096x1 .f32) (g P : Fin 4 → EReal)
    (R : Fin 32) (q : Fin 128) (p : Fin 4096) (hp : p.val = R.val * 128 + q.val)
    (hg : ∀ l, v43 (ix2 p l) = g l) (hP : ∀ l, v136 (ix2 p l) = P l) (h137 : v137 (ix2 p (0 : Fin 1)) = P 3)
    (h142 : v142 (ix2 p (0 : Fin 1)) = Cert.Moe.ind (g 2)) (h143 : v143 (ix2 p (0 : Fin 1)) = g 3) :
    k0_pay1 v43 v136 v137 v142 v143 (ix2 R q) = Cert.Moe.combine Cert.Moe.anyMax g P := by
  unfold k0_pay1
  -- entry (R, q) of the [32, 128] block is row p = R·128 + q of the [4096, 1] column
  refine (shapeCast_apply _ shapeCasts_S4096x1_S32x128 (ix2 R q) (ix2 p (0 : Fin 1)) ?_).trans ?_
  · rw [Shape.rowMajor_val_two, Shape.rowMajor_val_two]
    show p.val * 1 + 0 = R.val * 128 + q.val
    omega
  · unfold Cert.Moe.combine
    -- the indicators of gates 0 and 1, and the estimates 0, 1, 2
    have e0 := (ind_col (extractStridedSlice S4096x1 ![0, 0] v43 slices_S4096x4_o0_0_S4096x1) natLt_1_32 (ix2 p 0)).trans
      (congrArg Cert.Moe.ind ((col_apply v43 0 slices_S4096x4_o0_0_S4096x1 p 0).trans (hg 0)))
    have e1 := (ind_col (extractStridedSlice S4096x1 ![0, 1] v43 slices_S4096x4_o0_1_S4096x1) natLt_1_32 (ix2 p 0)).trans
      (congrArg Cert.Moe.ind ((col_apply v43 1 slices_S4096x4_o0_1_S4096x1 p 0).trans (hg 1)))
    have b0 := (col_apply v136 0 slices_S4096x4_o0_0_S4096x1 p 0).trans (hP 0)
    have b1 := (col_apply v136 1 slices_S4096x4_o0_1_S4096x1 p 0).trans (hP 1)
    have b2 := (col_apply v136 2 slices_S4096x4_o0_2_S4096x1 p 0).trans (hP 2)
    -- the rows of the deeper gates
    have r3 : (fun c : Fin 1 => v143 (ix2 p c)) = Cert.Moe.tail3 g := by
      funext c
      have hc : c = 0 := Fin.ext (by omega)
      subst hc
      exact h143.trans (congrArg g (Fin.ext rfl))
    have r2 : (fun c : Fin 2 => extractStridedSlice S4096x2 ![0, 2] v43 slices_S4096x4_o0_2_S4096x2 (ix2 p c)) = Cert.Moe.tail2 g :=
      tail_row v43 g p hg 2 2 rfl slices_S4096x4_o0_2_S4096x2
    have r1 : (fun c : Fin 3 => extractStridedSlice S4096x3 ![0, 1] v43 slices_S4096x4_o0_1_S4096x3 (ix2 p c)) = Cert.Moe.tail1 g :=
      tail_row v43 g p hg 3 1 rfl slices_S4096x4_o0_1_S4096x3
    -- the three indicators "some deeper gate is positive"
    have m3 := (ind_col (shapeCast S4096x1 (multiReduction .maximumf [1] S4096 v143 0xFF800000#32 reduces_S4096x1_S4096 (.inl rfl) rfl)
        shapeCasts_S4096_S4096x1) natLt_1_32 (ix2 p 0)).trans
      (congrArg Cert.Moe.ind ((mask_apply (n := 1) v143 reduces_S4096x1_S4096 p 0).trans (congrArg (Cert.Moe.anyMax 1) r3)))
    have m2 := (ind_col (shapeCast S4096x1 (multiReduction .maximumf [1] S4096
        (extractStridedSlice S4096x2 ![0, 2] v43 slices_S4096x4_o0_2_S4096x2) 0xFF800000#32 reduces_S4096x2_S4096 (.inl rfl) rfl)
        shapeCasts_S4096_S4096x1) natLt_1_32 (ix2 p 0)).trans
      (congrArg Cert.Moe.ind ((mask_apply (n := 2) _ reduces_S4096x2_S4096 p 0).trans (congrArg (Cert.Moe.anyMax 2) r2)))
    have m1 := (ind_col (shapeCast S4096x1 (multiReduction .maximumf [1] S4096
        (extractStridedSlice S4096x3 ![0, 1] v43 slices_S4096x4_o0_1_S4096x3) 0xFF800000#32 reduces_S4096x3_S4096 (.inl rfl) rfl)
        shapeCasts_S4096_S4096x1) natLt_1_32 (ix2 p 0)).trans
      (congrArg Cert.Moe.ind ((mask_apply (n := 3) _ reduces_S4096x3_S4096 p 0).trans (congrArg (Cert.Moe.anyMax 3) r1)))
    -- the column at row p is the routed combination, factor by factor
    exact congrArg₂ (· + ·) (congrArg₂ (· * ·) e0 b0)
      (congrArg₂ (· * ·) m1 (congrArg₂ (· + ·) (congrArg₂ (· * ·) e1 b1)
        (congrArg₂ (· * ·) m2 (congrArg₂ (· + ·) (congrArg₂ (· * ·) h142 b2) (congrArg₂ (· * ·) m3 h137)))))

end Cert.KernelIdeal.Body

end
-- ==== Proof.KBlock.lean ====
/-
  What the kernel body leaves in its [32, 128] output block, entry by entry: entry (R, q) is the routed estimate of row
  R·128 + q of the [4096, 128] input block — the gates, the four depths' activations and estimates of that row, and
  their routed combination with the deeper gates measured by their maximum.
-/
import proofs.«175448_j56392920597063_2_alg».proof.Proof.Gen.KernelIdeal.Frame
import proofs.«175448_j56392920597063_2_alg».proof.Proof.KGates
import proofs.«175448_j56392920597063_2_alg».proof.Proof.KLayers
import proofs.«175448_j56392920597063_2_alg».proof.Proof.KDeep
import proofs.«175448_j56392920597063_2_alg».proof.Proof.KFold
import Idealize.ShloMosaic.Lib.Pipeline.Value

set_option synthInstance.maxSize 4096
set_option maxRecDepth 16384

noncomputable section

namespace Cert.KernelIdeal.Body

open Idealize.ShloMosaic Idealize.ShloMosaic.ValueIdx Cert.KernelIdeal Cert.KernelIdeal.Gen

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's one store covers the whole block, and each load reads a whole block: the block the body leaves is its
    payload of the blocks it was given, and that payload at (R, q) is the routed estimate of row R·128 + q. -/
theorem out0_6_apply (x0 : Vec Ideal S4096x128 .f32) (x1 : Vec Ideal S128x4 .f32) (x2 : Vec Ideal S4x256x128 .bf16)
    (x3 : Vec Ideal S4x128 .f32) (x4 : Vec Ideal S4x128x1 .f32) (x5 : Vec Ideal S4x1 .f32)
    (R : Fin 32) (q : Fin 128) (p : Fin 4096) (hp : p.val = R.val * 128 + q.val) :
    out0_6 (F := Ideal) x0 x1 x2 x3 x4 x5 (ix2 R q)
      = Cert.Moe.rowOut Cert.Moe.anyMax (par x1 x2 x3 x4 x5) (row x0 p) := by
  unfold out0_6
  rw [View.canon_unit_zero zeros2]
  simp only [View.ld_unit_zero (S := S4096x128) zeros2, View.ld_unit_zero (S := S128x4) zeros2,
    View.ld_unit_zero (S := S4x256x128) zeros3, View.ld_unit_zero (S := S4x128) zeros2,
    View.ld_unit_zero (S := S4x128x1) zeros3, View.ld_unit_zero (S := S4x1) zeros2]
  have e2 : k0_pay2 (F := Ideal) x2 = x2 := shapeCast_self _ _
  rw [e2]
  have h13 : ∀ l, k0_pay13 (F := Ideal) x0 x2 x3 x4 x5 (k0_pay9 x0 x2 x3 x4 x5) (k0_pay11 x0 x2 x3 x4 x5) (k0_pay12 x0 x2 x3) (ix2 p l)
      = Cert.Moe.preds (par x1 x2 x3 x4 x5) (row x0 p) l := fun l =>
    pay13_apply x0 x1 x2 x3 x4 x5 _ _ _ (fun p' => pay9_apply x0 x1 x2 x3 x4 x5 p') (fun p' => pay11_apply x0 x1 x2 x3 x4 x5 p')
      (fun p' k => pay12_apply x0 x1 x2 x3 x4 x5 p' k) p l
  have hg : ∀ l, k0_pay7 (F := Ideal) (k0_pay3 x0 x1) (k0_pay4 x0 x1) (k0_pay5 x0 x1) (k0_pay6 x0 x1) (ix2 p l)
      = Cert.Moe.gate (par x1 x2 x3 x4 x5) (row x0 p) l := fun l => gates_apply x0 x1 x2 x3 x4 x5 p l
  refine pay1_apply _ _ _ _ _ (Cert.Moe.gate (par x1 x2 x3 x4 x5) (row x0 p)) (Cert.Moe.preds (par x1 x2 x3 x4 x5) (row x0 p))
    R q p hp hg h13 ?_ ?_ ?_
  · exact (pay14_apply x0 x2 x3 x4 x5 _ _ _ p).trans (h13 3)
  · exact (pay15_apply _ p).trans (congrArg Cert.Moe.ind (hg 2))
  · exact (pay16_apply _ p).trans (hg 3)

end Cert.KernelIdeal.Body

end
-- ==== Proof.KArray.lean ====
/-
  From the block the body leaves at each grid point to the whole result: the 32 blocks of 32 rows tile the [1024, 128]
  result array, entry (r, q) of which is the routed estimate of input row r·128 + q; the reshape to [131072, 1] that
  follows the region reads that array in row-major order, so entry (b, 0) of the final result is the routed estimate of
  input row b.
-/
import proofs.«175448_j56392920597063_2_alg».proof.Proof.Gen.KernelIdeal.Frame
import proofs.«175448_j56392920597063_2_alg».proof.Proof.KBlock
import Idealize.ShloMosaic.Lib.Pipeline.Value
import Idealize.ShloMosaic.Lib.StableHlo.Run
import Idealize.ShloMosaic.Lib.ValueIdx

set_option synthInstance.maxSize 4096
set_option maxRecDepth 16384

noncomputable section

namespace Cert.KernelIdeal.Body

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The printed index maps, decided over the grid's 32 points: block t of the input and of the result are their t-th
    row blocks; every parameter window is its whole array at every point. -/
theorem index_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0 :=
  (by decide +kernel : ∀ t : Fin grid0.N, _)

/-- The whole [1024, 128] result: entry (r, q) is the routed estimate of input row r·128 + q. -/
def G (ω : Cert.Moe.Params) (X : S131072x128.Idx → EReal) : S1024x128.Idx → EReal :=
  fun i => Cert.Moe.rowOut Cert.Moe.anyMax ω
    (fun k => X (ix2 (⟨(i 0).val * 128 + (i 1).val, by have := idx2_lt0 i; have := idx2_lt1 i; omega⟩ : Fin 131072) k))

/-- Block t of the input window is rows t·4096 … t·4096 + 4095 of the input array. -/
theorem iblk0_apply (c : Dev nD) (t : Fin cfg0.N) (p : Fin 4096) (k : Fin 128) (P : Fin 131072)
    (hP : P.val = t.val * 4096 + p.val) :
    (iblk m c 0 t : Vec Ideal S4096x128 .f32) (ix2 p k)
      = (m ((c.tc : Thread nD τ).loc main_arg0) : S131072x128.Idx → EReal) (ix2 P k) := by
  obtain ⟨e0, e1, -⟩ := index_facts t
  unfold iblk
  rw [View.read_apply]
  show V m c main_arg0 _ = m (c.tc.loc main_arg0) _
  rw [V_main_arg0]
  congr 1
  funext a
  apply Fin.ext
  match a with
  | ⟨0, _⟩ => show win0_0.index t 0 * 4096 + 1 * p.val = P.val; rw [e0, hP]; omega
  | ⟨1, _⟩ => show win0_0.index t 1 * 128 + 1 * k.val = k.val; rw [e1]; omega

/-- The router's window is its whole array at every point. -/
theorem iblk1_eq (c : Dev nD) (t : Fin cfg0.N) :
    (iblk m c 1 t : Vec Ideal S128x4 .f32) = m ((c.tc : Thread nD τ).loc main_arg1) := by
  obtain ⟨-, -, -, -, e0, e1, -⟩ := index_facts t
  funext j
  unfold iblk
  rw [View.read_apply]
  show V m c main_arg1 _ = m (c.tc.loc main_arg1) j
  rw [V_main_arg1]
  congr 1
  funext a
  apply Fin.ext
  match a with
  | ⟨0, _⟩ => show win0_1.index t 0 * 128 + 1 * (j 0).val = (j 0).val; rw [e0]; omega
  | ⟨1, _⟩ => show win0_1.index t 1 * 4 + 1 * (j 1).val = (j 1).val; rw [e1]; omega

/-- The layer weights reach the region through a change of format, which over the extended reals is the identity. -/
theorem V_main_v0 (c : Dev nD) :
    (V m c main_v0 : S4x256x128.Idx → EReal) = m ((c.tc : Thread nD τ).loc main_arg2) := by
  show StableHlo.after hostOps0 (fun b => m (c, b)) (Proc.devRef .tc main_v0) = _
  after_results
  rfl

/-- The layer weights' window is its whole array at every point. -/
theorem iblk2_eq (c : Dev nD) (t : Fin cfg0.N) :
    (iblk m c 2 t : Vec Ideal S4x256x128 .bf16) = m ((c.tc : Thread nD τ).loc main_arg2) := by
  obtain ⟨-, -, -, -, -, -, e0, e1, e2, -⟩ := index_facts t
  funext j
  unfold iblk
  rw [View.read_apply]
  show V m c main_v0 _ = m (c.tc.loc main_arg2) j
  rw [V_main_v0]
  congr 1
  funext a
  apply Fin.ext
  match a with
  | ⟨0, _⟩ => show win0_2.index t 0 * 4 + 1 * (j 0).val = (j 0).val; rw [e0]; omega
  | ⟨1, _⟩ => show win0_2.index t 1 * 256 + 1 * (j 1).val = (j 1).val; rw [e1]; omega
  | ⟨2, _⟩ => show win0_2.index t 2 * 128 + 1 * (j 2).val = (j 2).val; rw [e2]; omega

/-- The layer biases' window is its whole array at every point. -/
theorem iblk3_eq (c : Dev nD) (t : Fin cfg0.N) :
    (iblk m c 3 t : Vec Ideal S4x128 .f32) = m ((c.tc : Thread nD τ).loc main_arg3) := by
  obtain ⟨-, -, -, -, -, -, -, -, -, e0, e1, -⟩ := index_facts t
  funext j
  unfold iblk
  rw [View.read_apply]
  show V m c main_arg3 _ = m (c.tc.loc main_arg3) j
  rw [V_main_arg3]
  congr 1
  funext a
  apply Fin.ext
  match a with
  | ⟨0, _⟩ => show win0_3.index t 0 * 4 + 1 * (j 0).val = (j 0).val; rw [e0]; omega
  | ⟨1, _⟩ => show win0_3.index t 1 * 128 + 1 * (j 1).val = (j 1).val; rw [e1]; omega

/-- The estimator weights' window is its whole array at every point. -/
theorem iblk4_eq (c : Dev nD) (t : Fin cfg0.N) :
    (iblk m c 4 t : Vec Ideal S4x128x1 .f32) = m ((c.tc : Thread nD τ).loc main_arg4) := by
  obtain ⟨-, -, -, -, -, -, -, -, -, -, -, e0, e1, e2, -⟩ := index_facts t
  funext j
  unfold iblk
  rw [View.read_apply]
  show V m c main_arg4 _ = m (c.tc.loc main_arg4) j
  rw [V_main_arg4]
  congr 1
  funext a
  apply Fin.ext
  match a with
  | ⟨0, _⟩ => show win0_4.index t 0 * 4 + 1 * (j 0).val = (j 0).val; rw [e0]; omega
  | ⟨1, _⟩ => show win0_4.index t 1 * 128 + 1 * (j 1).val = (j 1).val; rw [e1]; omega
  | ⟨2, _⟩ => show win0_4.index t 2 * 1 + 1 * (j 2).val = (j 2).val; rw [e2]; omega

/-- The estimator biases' window is its whole array at every point. -/
theorem iblk5_eq (c : Dev nD) (t : Fin cfg0.N) :
    (iblk m c 5 t : Vec Ideal S4x1 .f32) = m ((c.tc : Thread nD τ).loc main_arg5) := by
  obtain ⟨-, -, -, -, -, -, -, -, -, -, -, -, -, -, e0, e1⟩ := index_facts t
  funext j
  unfold iblk
  rw [View.read_apply]
  show V m c main_arg5 _ = m (c.tc.loc main_arg5) j
  rw [V_main_arg5]
  congr 1
  funext a
  apply Fin.ext
  match a with
  | ⟨0, _⟩ => show win0_5.index t 0 * 4 + 1 * (j 0).val = (j 0).val; rw [e0]; omega
  | ⟨1, _⟩ => show win0_5.index t 1 * 1 + 1 * (j 1).val = (j 1).val; rw [e1]; omega

/-- One entry of the block the body leaves at the point whose input block is rows tv·4096 … of X: entry (R, q) is entry
    (tv·32 + R, q) of the whole result, because row R·128 + q of that input block is row (tv·32 + R)·128 + q of X. -/
theorem block_entry (x0 : Vec Ideal S4096x128 .f32) (x1 : Vec Ideal S128x4 .f32) (x2 : Vec Ideal S4x256x128 .bf16)
    (x3 : Vec Ideal S4x128 .f32) (x4 : Vec Ideal S4x128x1 .f32) (x5 : Vec Ideal S4x1 .f32)
    (ω : Cert.Moe.Params) (hω : par x1 x2 x3 x4 x5 = ω) (X : S131072x128.Idx → EReal) (tv : Nat) (htv : tv < 32)
    (hx0 : ∀ (p : Fin 4096) (k : Fin 128) (P : Fin 131072), P.val = tv * 4096 + p.val → x0 (ix2 p k) = X (ix2 P k))
    (R : Fin 32) (q : Fin 128) (i : S1024x128.Idx) (hi0 : (i 0).val = tv * 32 + R.val) (hi1 : (i 1).val = q.val) :
    out0_6 (F := Ideal) x0 x1 x2 x3 x4 x5 (ix2 R q) = G ω X i := by
  have hR := R.isLt
  have hq := q.isLt
  rw [out0_6_apply x0 x1 x2 x3 x4 x5 R q ⟨R.val * 128 + q.val, by omega⟩ rfl, hω]
  unfold G
  refine congrArg (Cert.Moe.rowOut Cert.Moe.anyMax ω) (funext fun k => ?_)
  exact hx0 _ k _ (by show (i 0).val * 128 + (i 1).val = tv * 4096 + (R.val * 128 + q.val); rw [hi0, hi1]; omega)

/-- The parameters as launched, on core c. -/
abbrev ω (c : Dev nD) : Cert.Moe.Params :=
  par (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

/-- What point t writes back is block t of the whole result: rows t·32 … t·32 + 31. -/
theorem flushed_eq (c : Dev nD) (t : Fin cfg0.N) :
    (dats m 0 c).flushed 6 t
      = ((cfg0.win 6).blk t).view.read (Elt Ideal) (G (ω m c) (m ((c.tc : Thread nD τ).loc main_arg0))) := by
  have hN : grid0.N = 32 := N_0
  obtain ⟨-, -, e0, e1, -⟩ := index_facts t
  show (cfg0.win 6).cut (grid0.coords t) ((dats m 0 c).after 6 t) = _
  rw [after0_6]
  funext j
  have h0 : (j 0).val < 32 := (j 0).isLt
  have h1 : (j 1).val < 128 := (j 1).isLt
  have ej : (cfg0.win 6).xinj (grid0.coords t) j = ix2 (⟨(j 0).val, h0⟩ : Fin 32) (⟨(j 1).val, h1⟩ : Fin 128) := by
    funext a; match a with | ⟨0, _⟩ => rfl | ⟨1, _⟩ => rfl
  refine (congrArg (out0_6 (F := Ideal) (iblk m c 0 t) (iblk m c 1 t) (iblk m c 2 t) (iblk m c 3 t) (iblk m c 4 t) (iblk m c 5 t)) ej).trans ?_
  refine block_entry (iblk m c 0 t) (iblk m c 1 t) (iblk m c 2 t) (iblk m c 3 t) (iblk m c 4 t) (iblk m c 5 t)
    (ω m c) ?_ (m ((c.tc : Thread nD τ).loc main_arg0)) t.val (by have ht : t.val < grid0.N := t.isLt; omega)
    (fun p k P hP => iblk0_apply m c t p k P hP) ⟨(j 0).val, h0⟩ ⟨(j 1).val, h1⟩ (((cfg0.win 6).blk t).view.emb j) ?_ ?_
  · rw [iblk1_eq m c t, iblk2_eq m c t, iblk3_eq m c t, iblk4_eq m c t, iblk5_eq m c t]
  · show win0_6.index t 0 * 32 + 1 * (j 0).val = t.val * 32 + (j 0).val; rw [e0]; omega
  · show win0_6.index t 1 * 128 + 1 * (j 1).val = (j 1).val; rw [e1]; omega

/-- An index of the result array is in point t's block iff each coordinate is in the block's range on its axis. -/
theorem mem_blk (t : Fin cfg0.N) (i : S1024x128.Idx) :
    i ∈ ((cfg0.win 6).blk t).view.set ↔ ∀ a : Fin 2, win0_6.index t a * S32x128.size a ≤ (i a).val
      ∧ (i a).val < win0_6.index t a * S32x128.size a + S32x128.size a := by
  show i ∈ ((View.whole main_v1).slice (win0_6.rect t)).set ↔ _
  rw [View.set_slice_whole, Rect.mem_set_unit]
  exact Iff.rfl

/-- The 32 blocks tile the result array: row r is in the block of point r / 32. -/
theorem cover (i : S1024x128.Idx) :
    ∃ t : Fin cfg0.N, (cfg0.win 6).flush t = true ∧ i ∈ ((cfg0.win 6).blk t).view.set := by
  have hN : grid0.N = 32 := N_0
  have hi0 : (i 0).val < 1024 := idx2_lt0 i
  have hi1 : (i 1).val < 128 := idx2_lt1 i
  have ht : (i 0).val / 32 < grid0.N := by omega
  refine ⟨⟨(i 0).val / 32, ht⟩, flush0_6 _, ?_⟩
  obtain ⟨-, -, e0, e1, -⟩ := index_facts ⟨(i 0).val / 32, ht⟩
  rw [mem_blk]
  intro a
  match a with
  | ⟨0, _⟩ =>
    show win0_6.index ⟨(i 0).val / 32, ht⟩ 0 * 32 ≤ (i 0).val ∧ (i 0).val < win0_6.index ⟨(i 0).val / 32, ht⟩ 0 * 32 + 32
    rw [e0]; show (i 0).val / 32 * 32 ≤ (i 0).val ∧ (i 0).val < (i 0).val / 32 * 32 + 32; omega
  | ⟨1, _⟩ =>
    show win0_6.index ⟨(i 0).val / 32, ht⟩ 1 * 128 ≤ (i 1).val ∧ (i 1).val < win0_6.index ⟨(i 0).val / 32, ht⟩ 1 * 128 + 128
    rw [e1]; omega

/-- The result array after the region: the whole result. -/
theorem final (c : Dev nD) :
    (dats m 0 c).arrAt 6 cfg0.N = G (ω m c) (m ((c.tc : Thread nD τ).loc main_arg0)) :=
  (dats m 0 c).arrAt_eq_of_cover 6 (G (ω m c) (m ((c.tc : Thread nD τ).loc main_arg0))) (fun t _ => flushed_eq m c t) cover

/-- The reshape to [131072, 1] reads the [1024, 128] result in row-major order: entry (b, 0) is entry (b / 128, b % 128),
    the routed estimate of input row (b / 128)·128 + b % 128 = b. -/
theorem reshape_G (ω : Cert.Moe.Params) (X : S131072x128.Idx → EReal) (h : S1024x128.ShapeCasts S131072x1) :
    shapeCast S131072x1 (G ω X) h = Cert.Moe.out Cert.Moe.anyMax ω X := by
  funext b
  have hb0 : (b 0).val < 131072 := idx2_lt0 b
  have hb1 : (b 1).val < 1 := idx2_lt1 b
  refine (shapeCast_apply (G ω X) h b (ix2 (⟨(b 0).val / 128, by omega⟩ : Fin 1024) (⟨(b 0).val % 128, Nat.mod_lt _ (by decide)⟩ : Fin 128)) ?_).trans ?_
  · rw [Shape.rowMajor_val_two, Shape.rowMajor_val_two]
    show (b 0).val / 128 * 128 + (b 0).val % 128 = (b 0).val * 1 + (b 1).val
    omega
  · unfold G Cert.Moe.out
    refine congrArg (Cert.Moe.rowOut Cert.Moe.anyMax ω) (funext fun k => congrArg X ?_)
    refine congrArg (fun P : Fin 131072 => ix2 P k) (Fin.ext ?_)
    show (b 0).val / 128 * 128 + (b 0).val % 128 = (b 0).val
    omega

/-- The final result: after the region the [1024, 128] result array is reshaped to [131072, 1]. -/
theorem tail_eq (c : Dev nD) :
    Pipeline.afterTail₀ cfgs (dats m) 0 (V0 m) [hostOps1] c main_v2
      = Cert.Moe.out Cert.Moe.anyMax (ω m c) (m ((c.tc : Thread nD τ).loc main_arg0)) := by
  unfold Pipeline.afterTail₀
  show StableHlo.after hostOps1 _ (Proc.devRef .tc main_v2) = _
  after_results
  have hW := (Pipeline.withArrays_arr spec0 launch0.win.arr_inj c (V0 m c) (fun w => (dats m 0 c).arrAt w cfg0.N) 6).trans
    (final m c)
  funext b
  refine Eq.trans ?_ (congrFun (reshape_G (ω m c) (m ((c.tc : Thread nD τ).loc main_arg0)) shapeCasts_S1024x128_S131072x1) b)
  show shapeCast S131072x1 (Pipeline.withArrays spec0 c (V0 m c) (fun w => (dats m 0 c).arrAt w cfg0.N)
    (Proc.devRef .tc (Pipeline.arrRef spec0 6))) shapeCasts_S1024x128_S131072x1 b = _
  rw [hW]

/-- The kernel program's run with its result named: the final [131072, 1] array is the routed estimate of every input
    row, the deeper gates measured by their maximum; the six argument arrays end as launched. -/
theorem run : θ_run (defs (F := Ideal)) (onTc (τ := τ) (main (F := Ideal))) ⟨m, fun _ => 0, ρ⟩ (fun r => ∀ c : Dev nD,
      r.2.mem ((c.tc : Thread nD τ).loc main_v2) = Cert.Moe.out Cert.Moe.anyMax (par (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Body

end
-- ==== Proof.RefCommon.lean ====
/-
  Names shared by the modules that read the reference's stages: the parameters as @main receives them, and one row of
  the input.
-/
import proofs.«175448_j56392920597063_2_alg».proof.Proof.Gen.ReferenceIdeal.Read
import proofs.«175448_j56392920597063_2_alg».proof.Proof.MoeSpec
import Idealize.ShloMosaic.Lib.ValueIdx

set_option synthInstance.maxSize 4096

noncomputable section

namespace Cert.ReferenceIdeal.RefValue

open Idealize.ShloMosaic Idealize.ShloMosaic.ValueIdx Cert.ReferenceIdeal Cert.ReferenceIdeal.Read

/-- The parameters, from the five parameter arrays of @main. -/
abbrev par (x1 : (⟨S128x4, .f32⟩ : BufTy).Contents (Elt Ideal)) (x2 : (⟨S4x256x128, .f32⟩ : BufTy).Contents (Elt Ideal)) (x3 : (⟨S4x128, .f32⟩ : BufTy).Contents (Elt Ideal))
    (x4 : (⟨S4x128x1, .f32⟩ : BufTy).Contents (Elt Ideal)) (x5 : (⟨S4x1, .f32⟩ : BufTy).Contents (Elt Ideal)) : Cert.Moe.Params := ⟨x1, x2, x3, x4, x5⟩

/-- Row b of the [131072, 128] input. -/
abbrev row (x0 : (⟨S131072x128, .f32⟩ : BufTy).Contents (Elt Ideal)) (b : Fin 131072) : Fin 128 → EReal := fun k => x0 (ix2 b k)

end Cert.ReferenceIdeal.RefValue

end
-- ==== Proof.RGates.lean ====
/-
  The reference's router: the [131072, 4] array of gates read at (b, l), and the six 0 / 1 columns it derives from
  them — at each depth d = 0, 1, 2 the indicator that gate d is positive, and the indicator that the sum of the deeper
  gates is positive.
-/
import proofs.«175448_j56392920597063_2_alg».proof.Proof.RefCommon

set_option synthInstance.maxSize 4096

noncomputable section

namespace Cert.ReferenceIdeal.RefValue

open Idealize.ShloMosaic Idealize.ShloMosaic.ValueIdx Cert.ReferenceIdeal Cert.ReferenceIdeal.Read
variable (x0 : (⟨S131072x128, .f32⟩ : BufTy).Contents (Elt Ideal)) (x1 : (⟨S128x4, .f32⟩ : BufTy).Contents (Elt Ideal)) (x2 : (⟨S4x256x128, .f32⟩ : BufTy).Contents (Elt Ideal))
  (x3 : (⟨S4x128, .f32⟩ : BufTy).Contents (Elt Ideal)) (x4 : (⟨S4x128x1, .f32⟩ : BufTy).Contents (Elt Ideal)) (x5 : (⟨S4x1, .f32⟩ : BufTy).Contents (Elt Ideal))

theorem ref_gates (b : Fin 131072) (l : Fin 4) :
    val_main_v1 (F := Ideal) x0 x1 (ix2 b l) = Cert.Moe.gate (par x1 x2 x3 x4 x5) (row x0 b) l := by
  rw [val_main_v1_apply, val_main_v0_apply, val_main_call0_v0_apply, val_main_call0_cst_apply, Ideal.maximumf_def,
    Ideal.ofBits_def, Ideal.ofBits_zero_f32]
  unfold Cert.Moe.gate
  refine congrArg (max · 0) (Finset.sum_congr rfl fun k _ => ?_)
  have el : lidx_main_v0 (ix2 b l) k = ix2 b k :=
    funext fun a => Fin.ext (by match a with | ⟨0, _⟩ => rfl | ⟨1, _⟩ => rfl)
  have er : ridx_main_v0 (ix2 b l) k = ix2 k l :=
    funext fun a => Fin.ext (by match a with | ⟨0, _⟩ => rfl | ⟨1, _⟩ => rfl)
  rw [el, er]

theorem ref_exit0 (b : Fin 131072) : val_main_v25 (F := Ideal) x0 x1 (ix2 b (0 : Fin 1)) = Cert.Moe.ind ((Cert.Moe.gate (par x1 x2 x3 x4 x5) (row x0 b)) 0) := by
  rw [val_main_v25_apply, val_main_v24_apply, val_main_v23_apply, val_main_v21_apply, val_main_v20_apply,
    val_main_v22_apply, val_main_cst_apply, Ideal.ofBits_def, Ideal.ofBits_zero_f32, Ideal.cmpf_def]
  have e : idx_main_v20 (idx_main_v21 (idx_main_v25 (ix2 b (0 : Fin 1)))) = ix2 b (0 : Fin 4) :=
    funext fun a => Fin.ext (by match a with | ⟨0, _⟩ => exact Nat.div_one _ | ⟨1, _⟩ => rfl)
  rw [e, ref_gates x0 x1 x2 x3 x4 x5]
  exact Cert.Moe.ind_of_unsigned _
theorem ref_exit1 (b : Fin 131072) : val_main_v56 (F := Ideal) x0 x1 (ix2 b (0 : Fin 1)) = Cert.Moe.ind ((Cert.Moe.gate (par x1 x2 x3 x4 x5) (row x0 b)) 1) := by
  rw [val_main_v56_apply, val_main_v55_apply, val_main_v54_apply, val_main_v52_apply, val_main_v51_apply,
    val_main_v53_apply, val_main_cst_2_apply, Ideal.ofBits_def, Ideal.ofBits_zero_f32, Ideal.cmpf_def]
  have e : idx_main_v51 (idx_main_v52 (idx_main_v56 (ix2 b (0 : Fin 1)))) = ix2 b (1 : Fin 4) :=
    funext fun a => Fin.ext (by match a with | ⟨0, _⟩ => exact Nat.div_one _ | ⟨1, _⟩ => rfl)
  rw [e, ref_gates x0 x1 x2 x3 x4 x5]
  exact Cert.Moe.ind_of_unsigned _
theorem ref_exit2 (b : Fin 131072) : val_main_v87 (F := Ideal) x0 x1 (ix2 b (0 : Fin 1)) = Cert.Moe.ind ((Cert.Moe.gate (par x1 x2 x3 x4 x5) (row x0 b)) 2) := by
  rw [val_main_v87_apply, val_main_v86_apply, val_main_v85_apply, val_main_v83_apply, val_main_v82_apply,
    val_main_v84_apply, val_main_cst_5_apply, Ideal.ofBits_def, Ideal.ofBits_zero_f32, Ideal.cmpf_def]
  have e : idx_main_v82 (idx_main_v83 (idx_main_v87 (ix2 b (0 : Fin 1)))) = ix2 b (2 : Fin 4) :=
    funext fun a => Fin.ext (by match a with | ⟨0, _⟩ => exact Nat.div_one _ | ⟨1, _⟩ => rfl)
  rw [e, ref_gates x0 x1 x2 x3 x4 x5]
  exact Cert.Moe.ind_of_unsigned _

theorem ref_enter0 (b : Fin 131072) :
    val_main_v31 (F := Ideal) x0 x1 (ix2 b (0 : Fin 1)) = Cert.Moe.ind (Cert.Moe.anySum 3 (Cert.Moe.tail1 (Cert.Moe.gate (par x1 x2 x3 x4 x5) (row x0 b)))) := by
  rw [val_main_v31_apply, val_main_v30_apply, val_main_v29_apply, val_main_v27_apply, val_main_cst_0_apply,
    val_main_v28_apply, val_main_cst_1_apply, Ideal.ofBits_def, Ideal.ofBits_zero_f32, zero_add, Ideal.cmpf_def]
  have e : (∑ k : Fin 3, val_main_v26 (F := Ideal) x0 x1 (idx_main_v27 (idx_main_v31 (ix2 b (0 : Fin 1))) k))
      = Cert.Moe.anySum 3 (Cert.Moe.tail1 (Cert.Moe.gate (par x1 x2 x3 x4 x5) (row x0 b))) := by
    unfold Cert.Moe.anySum Cert.Moe.tail1
    refine Finset.sum_congr rfl fun k _ => ?_
    rw [val_main_v26_apply]
    have e' : idx_main_v26 (idx_main_v27 (idx_main_v31 (ix2 b (0 : Fin 1))) k) = ix2 b (⟨k.val + 1, by omega⟩ : Fin 4) :=
      funext fun a => Fin.ext (by match a with | ⟨0, _⟩ => rfl | ⟨1, _⟩ => exact Nat.add_comm 1 k.val)
    rw [e', ref_gates x0 x1 x2 x3 x4 x5]
  rw [e]
  exact Cert.Moe.ind_of_unsigned _
theorem ref_enter1 (b : Fin 131072) :
    val_main_v62 (F := Ideal) x0 x1 (ix2 b (0 : Fin 1)) = Cert.Moe.ind (Cert.Moe.anySum 2 (Cert.Moe.tail2 (Cert.Moe.gate (par x1 x2 x3 x4 x5) (row x0 b)))) := by
  rw [val_main_v62_apply, val_main_v61_apply, val_main_v60_apply, val_main_v58_apply, val_main_cst_3_apply,
    val_main_v59_apply, val_main_cst_4_apply, Ideal.ofBits_def, Ideal.ofBits_zero_f32, zero_add, Ideal.cmpf_def]
  have e : (∑ k : Fin 2, val_main_v57 (F := Ideal) x0 x1 (idx_main_v58 (idx_main_v62 (ix2 b (0 : Fin 1))) k))
      = Cert.Moe.anySum 2 (Cert.Moe.tail2 (Cert.Moe.gate (par x1 x2 x3 x4 x5) (row x0 b))) := by
    unfold Cert.Moe.anySum Cert.Moe.tail2
    refine Finset.sum_congr rfl fun k _ => ?_
    rw [val_main_v57_apply]
    have e' : idx_main_v57 (idx_main_v58 (idx_main_v62 (ix2 b (0 : Fin 1))) k) = ix2 b (⟨k.val + 2, by omega⟩ : Fin 4) :=
      funext fun a => Fin.ext (by match a with | ⟨0, _⟩ => rfl | ⟨1, _⟩ => exact Nat.add_comm 2 k.val)
    rw [e', ref_gates x0 x1 x2 x3 x4 x5]
  rw [e]
  exact Cert.Moe.ind_of_unsigned _
theorem ref_enter2 (b : Fin 131072) :
    val_main_v93 (F := Ideal) x0 x1 (ix2 b (0 : Fin 1)) = Cert.Moe.ind (Cert.Moe.anySum 1 (Cert.Moe.tail3 (Cert.Moe.gate (par x1 x2 x3 x4 x5) (row x0 b)))) := by
  rw [val_main_v93_apply, val_main_v92_apply, val_main_v91_apply, val_main_v89_apply, val_main_cst_6_apply,
    val_main_v90_apply, val_main_cst_7_apply, Ideal.ofBits_def, Ideal.ofBits_zero_f32, zero_add, Ideal.cmpf_def]
  have e : (∑ k : Fin 1, val_main_v88 (F := Ideal) x0 x1 (idx_main_v89 (idx_main_v93 (ix2 b (0 : Fin 1))) k))
      = Cert.Moe.anySum 1 (Cert.Moe.tail3 (Cert.Moe.gate (par x1 x2 x3 x4 x5) (row x0 b))) := by
    unfold Cert.Moe.anySum Cert.Moe.tail3
    refine Finset.sum_congr rfl fun k _ => ?_
    rw [val_main_v88_apply]
    have e' : idx_main_v88 (idx_main_v89 (idx_main_v93 (ix2 b (0 : Fin 1))) k) = ix2 b (⟨k.val + 3, by omega⟩ : Fin 4) :=
      funext fun a => Fin.ext (by match a with | ⟨0, _⟩ => rfl | ⟨1, _⟩ => exact Nat.add_comm 3 k.val)
    rw [e', ref_gates x0 x1 x2 x3 x4 x5]
  rw [e]
  exact Cert.Moe.ind_of_unsigned _

end Cert.ReferenceIdeal.RefValue

end
-- ==== Proof.RLayers.lean ====
/-
  The reference's activations at the four depths, read at (b, j): each is the dense layer of that depth on the previous
  depth's row beside the input row.
-/
import proofs.«175448_j56392920597063_2_alg».proof.Proof.RefCommon
import proofs.«175448_j56392920597063_2_alg».proof.Proof.LibCatCols

set_option synthInstance.maxSize 4096

noncomputable section

namespace Cert.ReferenceIdeal.RefValue

open Idealize.ShloMosaic Idealize.ShloMosaic.ValueIdx Cert.ReferenceIdeal Cert.ReferenceIdeal.Read
variable (x0 : (⟨S131072x128, .f32⟩ : BufTy).Contents (Elt Ideal)) (x1 : (⟨S128x4, .f32⟩ : BufTy).Contents (Elt Ideal)) (x2 : (⟨S4x256x128, .f32⟩ : BufTy).Contents (Elt Ideal))
  (x3 : (⟨S4x128, .f32⟩ : BufTy).Contents (Elt Ideal)) (x4 : (⟨S4x128x1, .f32⟩ : BufTy).Contents (Elt Ideal)) (x5 : (⟨S4x1, .f32⟩ : BufTy).Contents (Elt Ideal))

/-- Depth 0: the dense layer of the input row beside itself. The stage is the rectified sum of the contraction of
    the joined rows with slice 0 of the weights and row 0 of the biases. -/
theorem ref_cur0 (b : Fin 131072) (j : Fin 128) :
    val_main_v11 (F := Ideal) x0 x2 x3 (ix2 b j) = Cert.Moe.cur0 (par x1 x2 x3 x4 x5) (row x0 b) j := by
  rw [val_main_v11_apply, val_main_v10_apply, val_main_v5_apply, val_main_v9_apply, val_main_v8_apply, val_main_v7_apply,
    val_main_v6_apply, val_main_call1_v0_apply, val_main_call1_cst_apply]
  unfold Cert.Moe.cur0 Cert.Moe.layer
  rw [Ideal.maximumf_def, Ideal.addf_def, Ideal.ofBits_def, Ideal.ofBits_zero_f32]
  refine congrArg₂ max (congrArg₂ (· + ·) (Finset.sum_congr rfl fun k _ => congrArg₂ (· * ·) ?_ ?_) ?_) rfl
  · -- the joined matrix at (b, k) is the joined row at k
    have e : lidx_main_v5 (ix2 b j) k = ix2 b k := funext fun a => Fin.ext (by
      match a with
      | ⟨0, _⟩ => rfl
      | ⟨1, _⟩ => rfl)
    rw [e]
    unfold val_main_v2
    refine (Cert.CatCols.cat2_apply (K := 128) (K2 := 256) rfl x0 x0 _ b k).trans ?_
    rfl
  · -- slice 0 of the weights, flattened to [256, 128], at (k, j) is the weight (0, k, j)
    rw [val_main_v4_apply, val_main_v3_apply]
    have hk := k.isLt
    have hj := j.isLt
    refine congrArg x2 (funext fun a => Fin.ext ?_)
    match a with
    | ⟨0, _⟩ => rfl
    | ⟨1, _⟩ => show (k.val * 128 + j.val) / 128 % 256 = k.val; omega
    | ⟨2, _⟩ => show (k.val * 128 + j.val) % 128 = j.val; omega
  · -- row 0 of the biases, broadcast down the rows, at (b, j) is the bias (0, j)
    have hj := j.isLt
    refine congrArg x3 (funext fun a => Fin.ext ?_)
    match a with
    | ⟨0, _⟩ => rfl
    | ⟨1, _⟩ => show j.val % 128 = j.val; omega

/-- Depth 1: the dense layer of depth 0's row beside the input row, with slice 1 of the weights and row 1 of the
    biases. The left half of the joined matrix is the previous depth's stage, read by `ref_cur0`. -/
theorem ref_cur1 (b : Fin 131072) (j : Fin 128) :
    val_main_v42 (F := Ideal) x0 x2 x3 (ix2 b j) = Cert.Moe.cur1 (par x1 x2 x3 x4 x5) (row x0 b) j := by
  rw [val_main_v42_apply, val_main_v41_apply, val_main_v36_apply, val_main_v40_apply, val_main_v39_apply, val_main_v38_apply,
    val_main_v37_apply, val_main_call2_v0_apply, val_main_call2_cst_apply]
  unfold Cert.Moe.cur1 Cert.Moe.layer
  rw [Ideal.maximumf_def, Ideal.addf_def, Ideal.ofBits_def, Ideal.ofBits_zero_f32]
  refine congrArg₂ max (congrArg₂ (· + ·) (Finset.sum_congr rfl fun k _ => congrArg₂ (· * ·) ?_ ?_) ?_) rfl
  · -- the joined matrix at (b, k) is the joined row at k
    have e : lidx_main_v36 (ix2 b j) k = ix2 b k := funext fun a => Fin.ext (by
      match a with
      | ⟨0, _⟩ => rfl
      | ⟨1, _⟩ => rfl)
    rw [e]
    unfold val_main_v33
    refine (Cert.CatCols.cat2_apply (K := 128) (K2 := 256) rfl (val_main_v11 (F := Ideal) x0 x2 x3) x0 _ b k).trans ?_
    unfold Cert.Moe.cat
    by_cases hk : k.val < 128
    · rw [dif_pos hk, dif_pos hk]
      exact ref_cur0 x0 x1 x2 x3 x4 x5 b ⟨k.val, hk⟩
    · rw [dif_neg hk, dif_neg hk]
  · -- slice 1 of the weights, flattened to [256, 128], at (k, j) is the weight (1, k, j)
    rw [val_main_v35_apply, val_main_v34_apply]
    have hk := k.isLt
    have hj := j.isLt
    refine congrArg x2 (funext fun a => Fin.ext ?_)
    match a with
    | ⟨0, _⟩ => rfl
    | ⟨1, _⟩ => show (k.val * 128 + j.val) / 128 % 256 = k.val; omega
    | ⟨2, _⟩ => show (k.val * 128 + j.val) % 128 = j.val; omega
  · -- row 1 of the biases, broadcast down the rows, at (b, j) is the bias (1, j)
    have hj := j.isLt
    refine congrArg x3 (funext fun a => Fin.ext ?_)
    match a with
    | ⟨0, _⟩ => rfl
    | ⟨1, _⟩ => show j.val % 128 = j.val; omega

/-- Depth 2: the dense layer of depth 1's row beside the input row, with slice 2 of the weights and row 2 of the
    biases. The left half of the joined matrix is the previous depth's stage, read by `ref_cur1`. -/
theorem ref_cur2 (b : Fin 131072) (j : Fin 128) :
    val_main_v73 (F := Ideal) x0 x2 x3 (ix2 b j) = Cert.Moe.cur2 (par x1 x2 x3 x4 x5) (row x0 b) j := by
  rw [val_main_v73_apply, val_main_v72_apply, val_main_v67_apply, val_main_v71_apply, val_main_v70_apply, val_main_v69_apply,
    val_main_v68_apply, val_main_call3_v0_apply, val_main_call3_cst_apply]
  unfold Cert.Moe.cur2 Cert.Moe.layer
  rw [Ideal.maximumf_def, Ideal.addf_def, Ideal.ofBits_def, Ideal.ofBits_zero_f32]
  refine congrArg₂ max (congrArg₂ (· + ·) (Finset.sum_congr rfl fun k _ => congrArg₂ (· * ·) ?_ ?_) ?_) rfl
  · -- the joined matrix at (b, k) is the joined row at k
    have e : lidx_main_v67 (ix2 b j) k = ix2 b k := funext fun a => Fin.ext (by
      match a with
      | ⟨0, _⟩ => rfl
      | ⟨1, _⟩ => rfl)
    rw [e]
    unfold val_main_v64
    refine (Cert.CatCols.cat2_apply (K := 128) (K2 := 256) rfl (val_main_v42 (F := Ideal) x0 x2 x3) x0 _ b k).trans ?_
    unfold Cert.Moe.cat
    by_cases hk : k.val < 128
    · rw [dif_pos hk, dif_pos hk]
      exact ref_cur1 x0 x1 x2 x3 x4 x5 b ⟨k.val, hk⟩
    · rw [dif_neg hk, dif_neg hk]
  · -- slice 2 of the weights, flattened to [256, 128], at (k, j) is the weight (2, k, j)
    rw [val_main_v66_apply, val_main_v65_apply]
    have hk := k.isLt
    have hj := j.isLt
    refine congrArg x2 (funext fun a => Fin.ext ?_)
    match a with
    | ⟨0, _⟩ => rfl
    | ⟨1, _⟩ => show (k.val * 128 + j.val) / 128 % 256 = k.val; omega
    | ⟨2, _⟩ => show (k.val * 128 + j.val) % 128 = j.val; omega
  · -- row 2 of the biases, broadcast down the rows, at (b, j) is the bias (2, j)
    have hj := j.isLt
    refine congrArg x3 (funext fun a => Fin.ext ?_)
    match a with
    | ⟨0, _⟩ => rfl
    | ⟨1, _⟩ => show j.val % 128 = j.val; omega

/-- Depth 3: the dense layer of depth 2's row beside the input row, with slice 3 of the weights and row 3 of the
    biases. The left half of the joined matrix is the previous depth's stage, read by `ref_cur2`. -/
theorem ref_cur3 (b : Fin 131072) (j : Fin 128) :
    val_main_v104 (F := Ideal) x0 x2 x3 (ix2 b j) = Cert.Moe.cur3 (par x1 x2 x3 x4 x5) (row x0 b) j := by
  rw [val_main_v104_apply, val_main_v103_apply, val_main_v98_apply, val_main_v102_apply, val_main_v101_apply, val_main_v100_apply,
    val_main_v99_apply, val_main_call4_v0_apply, val_main_call4_cst_apply]
  unfold Cert.Moe.cur3 Cert.Moe.layer
  rw [Ideal.maximumf_def, Ideal.addf_def, Ideal.ofBits_def, Ideal.ofBits_zero_f32]
  refine congrArg₂ max (congrArg₂ (· + ·) (Finset.sum_congr rfl fun k _ => congrArg₂ (· * ·) ?_ ?_) ?_) rfl
  · -- the joined matrix at (b, k) is the joined row at k
    have e : lidx_main_v98 (ix2 b j) k = ix2 b k := funext fun a => Fin.ext (by
      match a with
      | ⟨0, _⟩ => rfl
      | ⟨1, _⟩ => rfl)
    rw [e]
    unfold val_main_v95
    refine (Cert.CatCols.cat2_apply (K := 128) (K2 := 256) rfl (val_main_v73 (F := Ideal) x0 x2 x3) x0 _ b k).trans ?_
    unfold Cert.Moe.cat
    by_cases hk : k.val < 128
    · rw [dif_pos hk, dif_pos hk]
      exact ref_cur2 x0 x1 x2 x3 x4 x5 b ⟨k.val, hk⟩
    · rw [dif_neg hk, dif_neg hk]
  · -- slice 3 of the weights, flattened to [256, 128], at (k, j) is the weight (3, k, j)
    rw [val_main_v97_apply, val_main_v96_apply]
    have hk := k.isLt
    have hj := j.isLt
    refine congrArg x2 (funext fun a => Fin.ext ?_)
    match a with
    | ⟨0, _⟩ => rfl
    | ⟨1, _⟩ => show (k.val * 128 + j.val) / 128 % 256 = k.val; omega
    | ⟨2, _⟩ => show (k.val * 128 + j.val) % 128 = j.val; omega
  · -- row 3 of the biases, broadcast down the rows, at (b, j) is the bias (3, j)
    have hj := j.isLt
    refine congrArg x3 (funext fun a => Fin.ext ?_)
    match a with
    | ⟨0, _⟩ => rfl
    | ⟨1, _⟩ => show j.val % 128 = j.val; omega

end Cert.ReferenceIdeal.RefValue

end
-- ==== Proof.RPreds.lean ====
/-
  The reference's four estimates, read at row b: each is the estimator of its depth on that depth's activations.
-/
import proofs.«175448_j56392920597063_2_alg».proof.Proof.RLayers

set_option synthInstance.maxSize 4096

noncomputable section

namespace Cert.ReferenceIdeal.RefValue

open Idealize.ShloMosaic Idealize.ShloMosaic.ValueIdx Cert.ReferenceIdeal Cert.ReferenceIdeal.Read
variable (x0 : (⟨S131072x128, .f32⟩ : BufTy).Contents (Elt Ideal)) (x1 : (⟨S128x4, .f32⟩ : BufTy).Contents (Elt Ideal)) (x2 : (⟨S4x256x128, .f32⟩ : BufTy).Contents (Elt Ideal))
  (x3 : (⟨S4x128, .f32⟩ : BufTy).Contents (Elt Ideal)) (x4 : (⟨S4x128x1, .f32⟩ : BufTy).Contents (Elt Ideal)) (x5 : (⟨S4x1, .f32⟩ : BufTy).Contents (Elt Ideal))

theorem ref_pred0 (b : Fin 131072) :
    val_main_v19 (F := Ideal) x0 x2 x3 x4 x5 (ix2 b (0 : Fin 1)) = Cert.Moe.pred (par x1 x2 x3 x4 x5) 0 (Cert.Moe.cur0 (par x1 x2 x3 x4 x5) (row x0 b)) := by
  rw [val_main_v19_apply, val_main_v14_apply, val_main_v18_apply, val_main_v17_apply, val_main_v16_apply,
    val_main_v15_apply, Ideal.addf_def]
  unfold Cert.Moe.pred
  refine congrArg₂ (· + ·) (Finset.sum_congr rfl fun k _ => congrArg₂ (· * ·) ?_ ?_) ?_
  · -- the activations at (b, k)
    have e : lidx_main_v14 (ix2 b (0 : Fin 1)) k = ix2 b k := funext fun a => Fin.ext (by
      match a with
      | ⟨0, _⟩ => rfl
      | ⟨1, _⟩ => rfl)
    rw [e]
    exact ref_cur0 x0 x1 x2 x3 x4 x5 b k
  · -- slice 0 of the estimator weights, flattened to [128, 1], at (k, 0) is the weight (0, k, 0)
    rw [val_main_v13_apply, val_main_v12_apply]
    have hk := k.isLt
    refine congrArg x4 (funext fun a => Fin.ext ?_)
    match a with
    | ⟨0, _⟩ => rfl
    | ⟨1, _⟩ => show (k.val * 1 + 0) / 1 % 128 = k.val; omega
    | ⟨2, _⟩ => rfl
  · -- entry (0, 0) of the estimator biases, broadcast down the rows
    refine congrArg x5 (funext fun a => Fin.ext ?_)
    match a with
    | ⟨0, _⟩ => rfl
    | ⟨1, _⟩ => rfl
theorem ref_pred1 (b : Fin 131072) :
    val_main_v50 (F := Ideal) x0 x2 x3 x4 x5 (ix2 b (0 : Fin 1)) = Cert.Moe.pred (par x1 x2 x3 x4 x5) 1 (Cert.Moe.cur1 (par x1 x2 x3 x4 x5) (row x0 b)) := by
  rw [val_main_v50_apply, val_main_v45_apply, val_main_v49_apply, val_main_v48_apply, val_main_v47_apply,
    val_main_v46_apply, Ideal.addf_def]
  unfold Cert.Moe.pred
  refine congrArg₂ (· + ·) (Finset.sum_congr rfl fun k _ => congrArg₂ (· * ·) ?_ ?_) ?_
  · -- the activations at (b, k)
    have e : lidx_main_v45 (ix2 b (0 : Fin 1)) k = ix2 b k := funext fun a => Fin.ext (by
      match a with
      | ⟨0, _⟩ => rfl
      | ⟨1, _⟩ => rfl)
    rw [e]
    exact ref_cur1 x0 x1 x2 x3 x4 x5 b k
  · -- slice 1 of the estimator weights, flattened to [128, 1], at (k, 0) is the weight (1, k, 0)
    rw [val_main_v44_apply, val_main_v43_apply]
    have hk := k.isLt
    refine congrArg x4 (funext fun a => Fin.ext ?_)
    match a with
    | ⟨0, _⟩ => rfl
    | ⟨1, _⟩ => show (k.val * 1 + 0) / 1 % 128 = k.val; omega
    | ⟨2, _⟩ => rfl
  · -- entry (1, 0) of the estimator biases, broadcast down the rows
    refine congrArg x5 (funext fun a => Fin.ext ?_)
    match a with
    | ⟨0, _⟩ => rfl
    | ⟨1, _⟩ => rfl
theorem ref_pred2 (b : Fin 131072) :
    val_main_v81 (F := Ideal) x0 x2 x3 x4 x5 (ix2 b (0 : Fin 1)) = Cert.Moe.pred (par x1 x2 x3 x4 x5) 2 (Cert.Moe.cur2 (par x1 x2 x3 x4 x5) (row x0 b)) := by
  rw [val_main_v81_apply, val_main_v76_apply, val_main_v80_apply, val_main_v79_apply, val_main_v78_apply,
    val_main_v77_apply, Ideal.addf_def]
  unfold Cert.Moe.pred
  refine congrArg₂ (· + ·) (Finset.sum_congr rfl fun k _ => congrArg₂ (· * ·) ?_ ?_) ?_
  · -- the activations at (b, k)
    have e : lidx_main_v76 (ix2 b (0 : Fin 1)) k = ix2 b k := funext fun a => Fin.ext (by
      match a with
      | ⟨0, _⟩ => rfl
      | ⟨1, _⟩ => rfl)
    rw [e]
    exact ref_cur2 x0 x1 x2 x3 x4 x5 b k
  · -- slice 2 of the estimator weights, flattened to [128, 1], at (k, 0) is the weight (2, k, 0)
    rw [val_main_v75_apply, val_main_v74_apply]
    have hk := k.isLt
    refine congrArg x4 (funext fun a => Fin.ext ?_)
    match a with
    | ⟨0, _⟩ => rfl
    | ⟨1, _⟩ => show (k.val * 1 + 0) / 1 % 128 = k.val; omega
    | ⟨2, _⟩ => rfl
  · -- entry (2, 0) of the estimator biases, broadcast down the rows
    refine congrArg x5 (funext fun a => Fin.ext ?_)
    match a with
    | ⟨0, _⟩ => rfl
    | ⟨1, _⟩ => rfl
theorem ref_pred3 (b : Fin 131072) :
    val_main_v112 (F := Ideal) x0 x2 x3 x4 x5 (ix2 b (0 : Fin 1)) = Cert.Moe.pred (par x1 x2 x3 x4 x5) 3 (Cert.Moe.cur3 (par x1 x2 x3 x4 x5) (row x0 b)) := by
  rw [val_main_v112_apply, val_main_v107_apply, val_main_v111_apply, val_main_v110_apply, val_main_v109_apply,
    val_main_v108_apply, Ideal.addf_def]
  unfold Cert.Moe.pred
  refine congrArg₂ (· + ·) (Finset.sum_congr rfl fun k _ => congrArg₂ (· * ·) ?_ ?_) ?_
  · -- the activations at (b, k)
    have e : lidx_main_v107 (ix2 b (0 : Fin 1)) k = ix2 b k := funext fun a => Fin.ext (by
      match a with
      | ⟨0, _⟩ => rfl
      | ⟨1, _⟩ => rfl)
    rw [e]
    exact ref_cur3 x0 x1 x2 x3 x4 x5 b k
  · -- slice 3 of the estimator weights, flattened to [128, 1], at (k, 0) is the weight (3, k, 0)
    rw [val_main_v106_apply, val_main_v105_apply]
    have hk := k.isLt
    refine congrArg x4 (funext fun a => Fin.ext ?_)
    match a with
    | ⟨0, _⟩ => rfl
    | ⟨1, _⟩ => show (k.val * 1 + 0) / 1 % 128 = k.val; omega
    | ⟨2, _⟩ => rfl
  · -- entry (3, 0) of the estimator biases, broadcast down the rows
    refine congrArg x5 (funext fun a => Fin.ext ?_)
    match a with
    | ⟨0, _⟩ => rfl
    | ⟨1, _⟩ => rfl

end Cert.ReferenceIdeal.RefValue

end
-- ==== Proof.RFold.lean ====
/-
  The reference's result array: at row b it is the routed combination of the four estimates of row b under the gates
  of row b, the deeper gates measured by their sum.
-/
import proofs.«175448_j56392920597063_2_alg».proof.Proof.RGates
import proofs.«175448_j56392920597063_2_alg».proof.Proof.RPreds

set_option synthInstance.maxSize 4096

noncomputable section

namespace Cert.ReferenceIdeal.RefValue

open Idealize.ShloMosaic Idealize.ShloMosaic.ValueIdx Cert.ReferenceIdeal Cert.ReferenceIdeal.Read

variable (x0 : (⟨S131072x128, .f32⟩ : BufTy).Contents (Elt Ideal)) (x1 : (⟨S128x4, .f32⟩ : BufTy).Contents (Elt Ideal)) (x2 : (⟨S4x256x128, .f32⟩ : BufTy).Contents (Elt Ideal))
  (x3 : (⟨S4x128, .f32⟩ : BufTy).Contents (Elt Ideal)) (x4 : (⟨S4x128x1, .f32⟩ : BufTy).Contents (Elt Ideal)) (x5 : (⟨S4x1, .f32⟩ : BufTy).Contents (Elt Ideal))

/-- The reference's last stage is the specification's array, with the sum as the measure of the deeper gates: its
    nine last operations are the products and sums of the routed combination, from the deepest estimate outwards. -/
theorem ref_out : val_main_v118 (F := Ideal) x0 x1 x2 x3 x4 x5 = Cert.Moe.out Cert.Moe.anySum (par x1 x2 x3 x4 x5) x0 := by
  funext i
  obtain ⟨b, u, rfl⟩ : ∃ (b : Fin 131072) (u : Fin 1), i = ix2 b u := ⟨i 0, i 1, eq_ix2 i⟩
  obtain rfl : u = 0 := Subsingleton.elim _ _
  rw [val_main_v118_apply, val_main_v32_apply, val_main_v117_apply, val_main_v116_apply, val_main_v63_apply,
    val_main_v115_apply, val_main_v114_apply, val_main_v94_apply, val_main_v113_apply]
  rw [ref_exit0 x0 x1 x2 x3 x4 x5 b, ref_pred0 x0 x1 x2 x3 x4 x5 b, ref_enter0 x0 x1 x2 x3 x4 x5 b,
    ref_exit1 x0 x1 x2 x3 x4 x5 b, ref_pred1 x0 x1 x2 x3 x4 x5 b, ref_enter1 x0 x1 x2 x3 x4 x5 b,
    ref_exit2 x0 x1 x2 x3 x4 x5 b, ref_pred2 x0 x1 x2 x3 x4 x5 b, ref_enter2 x0 x1 x2 x3 x4 x5 b,
    ref_pred3 x0 x1 x2 x3 x4 x5 b]
  rfl

end Cert.ReferenceIdeal.RefValue

end
-- ==== Proof.lean ====
/-
  The certificate of the routed four-depth estimator: a Pallas kernel over row blocks of a [131072, 128] input against
  its plain reference, equal over the extended reals.

  Both programs compute, for every input row x, the four router gates max (x · Wr_l) 0, the activations of four stacked
  dense layers cur_d = max ((cur_{d-1} ‖ x) · W_d + b_d) 0 (cur_{-1} = x), the four estimates cur_d · We_d + be_d, and the
  routed combination [gate_0 > 0] · est_0 + [later_0] · ([gate_1 > 0] · est_1 + [later_1] · ([gate_2 > 0] · est_2 + [later_2] · est_3)),
  where [later_d] says that some gate deeper than d is positive (Proof/MoeSpec.lean). They differ in how that last
  indicator is taken — the kernel tests the MAXIMUM of the deeper gates, the reference their SUM — and these agree
  because every gate is a maximum with 0, hence nonnegative: a finite nonnegative family has a positive maximum exactly
  when it has a positive sum (MoeSpec `out_max_eq_sum`). The kernel's lane sums against the reference's matrix
  products, its bf16 operands of the layer products, and its [1024, 128] layout of the result are no difference over
  the extended reals, where a change of format is the identity and a product of matrices is its sum of products. No
  step needs the inputs finite, so the precondition is never opened.

  The kernel side: the body's block, entry by entry (Proof/KGates, KDense, KLayers, KDeep, KFold, KBlock), then the
  blocks as one array and the host's reshape of it, which name the result of the program's run (Proof/KArray). The
  reference side: its stages read at an index (Proof/RGates, RLayers, RPreds, RFold) over its generated run. The ideal
  pass rewrote nothing, so the kernel's idealization is the kernel's own text and `preserves` is trivial.
-/
import proofs.«175448_j56392920597063_2_alg».proof.Defs
import proofs.«175448_j56392920597063_2_alg».proof.Proof.Gen.Kernel
import proofs.«175448_j56392920597063_2_alg».proof.Proof.Gen.Kernel.Skeleton
import proofs.«175448_j56392920597063_2_alg».proof.Proof.Gen.Kernel.Launch
import proofs.«175448_j56392920597063_2_alg».proof.Proof.Gen.Kernel.Points
import proofs.«175448_j56392920597063_2_alg».proof.Proof.Gen.Kernel.Frame
import proofs.«175448_j56392920597063_2_alg».proof.Proof.Gen.KernelIdeal
import proofs.«175448_j56392920597063_2_alg».proof.Proof.Gen.KernelIdeal.Skeleton
import proofs.«175448_j56392920597063_2_alg».proof.Proof.Gen.KernelIdeal.Launch
import proofs.«175448_j56392920597063_2_alg».proof.Proof.Gen.KernelIdeal.Points
import proofs.«175448_j56392920597063_2_alg».proof.Proof.Gen.KernelIdeal.Frame
import proofs.«175448_j56392920597063_2_alg».proof.Proof.Gen.ReferenceIdeal
import proofs.«175448_j56392920597063_2_alg».proof.Proof.Gen.ReferenceIdeal.Run
import proofs.«175448_j56392920597063_2_alg».proof.Proof.Gen.ReferenceIdeal.Read
import proofs.«175448_j56392920597063_2_alg».proof.Proof.Gen.Pre_finite_inputs
import proofs.«175448_j56392920597063_2_alg».proof.Proof.MoeSpec
import proofs.«175448_j56392920597063_2_alg».proof.Proof.KArray
import proofs.«175448_j56392920597063_2_alg».proof.Proof.RFold
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same [131072, 1] array: the kernel's is the
    routed estimate with the deeper gates measured by their maximum, the reference's the same with their sum, and the
    two measures give one indicator on nonnegative gates. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v118_eq, Cert.ReferenceIdeal.RefValue.ref_out,
    (hagree c).1, (hagree c).2.1, (hagree c).2.2.1, (hagree c).2.2.2.1, (hagree c).2.2.2.2.1, (hagree c).2.2.2.2.2]
  exact (Cert.Moe.out_max_eq_sum _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
